-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S2x500000 : Shape := ⟨2, ![2, 500000]⟩
abbrev S500000x128 : Shape := ⟨2, ![500000, 128]⟩
abbrev S128x128 : Shape := ⟨2, ![128, 128]⟩
abbrev S128 : Shape := ⟨1, ![128]⟩
abbrev S384x128 : Shape := ⟨2, ![384, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S128 .f32) (main_arg10 : FVec F S384x128 .f32) (main_arg11 : FVec F S128 .f32) (main_arg12 : FVec F S128x1 .f32) (main_arg13 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S384x128 .f32 := Host.absf main_arg10
  let main_cst_14 : FVec F S_ .f32 := constant S_ .f32 0x7F800000#32
  let main_v40 : FVec F S384x128 .f32 := broadcastInDim S384x128 ![] bcast_S_S384x128 main_cst_14
  let main_v41 : IVec S384x128 1 := cmpf .olt main_v39 main_v40
  let main_c_15 : IVec S_ 1 := constantI S_ 1 1#1
  let main_v42 : IVec S_ 1 := (fun x v => Host.reduce IntOp.andi x v reducesTo_S384x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg12
  let main_cst_18 : FVec F S_ .f32 := constant S_ .f32 0x7F800000#32
  let main_v50 : FVec F S128x1 .f32 := broadcastInDim S128x1 ![] bcast_S_S128x1 main_cst_18
  fn_part3 (F := F) main_arg13 main_v48 main_v49 main_v50

def fn_part1 {F : FTy → Type} [FloatOps F] (main_arg6 : FVec F S128 .f32) (main_arg7 : FVec F S128x128 .f32) (main_arg8 : FVec F S128x128 .f32) (main_arg9 : FVec F S128 .f32) (main_arg10 : FVec F S384x128 .f32) (main_arg11 : FVec F S128 .f32) (main_arg12 : FVec F S128x1 .f32) (main_arg13 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x128 .f32) (main_arg1 : IVec S2x1600000 32) (main_arg2 : IVec S2x500000 32) (main_arg3 : FVec F S500000x128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S384x128 .f32) (main_arg11 : FVec F S128 .f32) (main_arg12 : FVec F S128x1 .f32) (main_arg13 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000x128 .f32 := Host.absf main_arg3
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_v13 main_v16
-- ==== Kernel.lean ====
abbrev S50000x128 : Shape := ⟨2, ![50000, 128]⟩
abbrev S2x1600000 : Shape := ⟨2, ![2, 1600000]⟩
abbrev S2x500000 : Shape := ⟨2, ![2, 500000]⟩
abbrev S500000x128 : Shape := ⟨2, ![500000, 128]⟩
abbrev S128x128 : Shape := ⟨2, ![128, 128]⟩
abbrev S128 : Shape := ⟨1, ![128]⟩
abbrev S384x128 : Shape := ⟨2, ![384, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S50000x1 : Shape := ⟨2, ![50000, 1]⟩
abbrev S1x128 : Shape := ⟨2, ![1, 128]⟩
abbrev S1600000x128 : Shape := ⟨2, ![1600000, 128]⟩
abbrev S5000x128 : Shape := ⟨2, ![5000, 128]⟩
abbrev S5000x1 : Shape := ⟨2, ![5000, 1]⟩
abbrev S1x500000 : Shape := ⟨2, ![1, 500000]⟩
abbrev S500000 : Shape := ⟨1, ![500000]⟩
abbrev S500000x1 : Shape := ⟨2, ![500000, 1]⟩
abbrev S1x1 : Shape := ⟨2, ![1, 1]⟩
abbrev S5000 : Shape := ⟨1, ![5000]⟩

abbrev nBuf : Space → Nat
  | .hbm => 91
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S2x500000, .i32⟩
  | .hbm, ⟨3, _⟩ => ⟨S500000x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S384x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .f32⟩
  | .hbm, ⟨19, _⟩ => ⟨S1600000x1, .f32⟩
  | .hbm, ⟨20, _⟩ => ⟨S_, .f32⟩
  | .hbm, ⟨21, _⟩ => ⟨S50000x1, .f32⟩
  | .hbm, ⟨22, _⟩ => ⟨S1600000x1, .i32⟩
  | .hbm, ⟨23, _⟩ => ⟨S50000x1, .f32⟩
  | .hbm, ⟨24, _⟩ => ⟨S128x128, .bf16⟩
  | .hbm, ⟨25, _⟩ => ⟨S128x128, .bf16⟩
  | .hbm, ⟨26, _⟩ => ⟨S1x128, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S50000x128, .f32⟩
  | .hbm, ⟨38, _⟩ => ⟨S1600000x1, .i32⟩
  | .hbm, ⟨39, _⟩ => ⟨S50000x128, .f32⟩
  | .hbm, ⟨40, _⟩ => ⟨S50000x128, .f32⟩
  | .hbm, ⟨41, _⟩ => ⟨S128x128, .bf16⟩
  | .hbm, ⟨42, _⟩ => ⟨S128x128, .bf16⟩
  | .hbm, ⟨43, _⟩ => ⟨S1x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S50000x128, .f32⟩
  | .hbm, ⟨55, _⟩ => ⟨S1600000x1, .i32⟩
  | .hbm, ⟨56, _⟩ => ⟨S50000x128, .f32⟩
  | .hbm, ⟨57, _⟩ => ⟨S50000x128, .f32⟩
  | .hbm, ⟨58, _⟩ => ⟨S1x500000, .i32⟩
  | .hbm, ⟨59, _⟩ => ⟨S500000, .i32⟩
  | .hbm, ⟨60, _⟩ => ⟨S1x500000, .i32⟩
  | .hbm, ⟨61, _⟩ => ⟨S500000, .i32⟩
  | .hbm, ⟨62, _⟩ => ⟨S_, .i32⟩
  | .hbm, ⟨63, _⟩ => ⟨S500000, .i32⟩
  | .hbm, ⟨64, _⟩ => ⟨S500000, .i1⟩
  | .hbm, ⟨65, _⟩ => ⟨S_, .i32⟩
  | .hbm, ⟨66, _⟩ => ⟨S500000, .i32⟩
  | .hbm, ⟨67, _⟩ => ⟨S500000, .i32⟩
  | .hbm, ⟨68, _⟩ => ⟨S500000, .i32⟩
  | .hbm, ⟨69, _⟩ => ⟨S500000x1, .i32⟩
  | .hbm, ⟨70, _⟩ => ⟨S500000x128, .f32⟩
  | .hbm, ⟨71, _⟩ => ⟨S_, .i32⟩
  | .hbm, ⟨72, _⟩ => ⟨S500000, .i32⟩
  | .hbm, ⟨73, _⟩ => ⟨S500000, .i1⟩
  | .hbm, ⟨74, _⟩ => ⟨S_, .i32⟩
  | .hbm, ⟨75, _⟩ => ⟨S500000, .i32⟩
  | .hbm, ⟨76, _⟩ => ⟨S500000, .i32⟩
  | .hbm, ⟨77, _⟩ => ⟨S500000, .i32⟩
  | .hbm, ⟨78, _⟩ => ⟨S500000x1, .i32⟩
  | .hbm, ⟨79, _⟩ => ⟨S500000x128, .f32⟩
  | .hbm, ⟨80, _⟩ => ⟨S128x128, .f32⟩
  | .hbm, ⟨81, _⟩ => ⟨S128x128, .bf16⟩
  | .hbm, ⟨82, _⟩ => ⟨S128x128, .f32⟩
  | .hbm, ⟨83, _⟩ => ⟨S128x128, .bf16⟩
  | .hbm, ⟨84, _⟩ => ⟨S128x128, .f32⟩
  | .hbm, ⟨85, _⟩ => ⟨S128x128, .bf16⟩
  | .hbm, ⟨86, _⟩ => ⟨S1x128, .f32⟩
  | .hbm, ⟨87, _⟩ => ⟨S1x128, .f32⟩
  | .hbm, ⟨88, _⟩ => ⟨S1x1, .f32⟩
  | .hbm, ⟨89, _⟩ => ⟨S500000x1, .f32⟩
  | .hbm, ⟨90, _⟩ => ⟨S500000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .bf16⟩
  | .local _ .vmem, ⟨18, _⟩ => ⟨S128x128, .bf16⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .bf16⟩
  | .local _ .vmem, ⟨29, _⟩ => ⟨S128x128, .bf16⟩
  | .local _ .vmem, ⟨30, _⟩ => ⟨S128x128, .bf16⟩
  | .local _ .vmem, ⟨31, _⟩ => ⟨S1x128, .f32⟩
  | .local _ .vmem, ⟨32, _⟩ => ⟨S1x128, .f32⟩
  | .local _ .vmem, ⟨33, _⟩ => ⟨S1x1, .f32⟩
  | .local _ .vmem, ⟨34, _⟩ => ⟨S5000x1, .f32⟩
  | .local _ .vmem, ⟨35, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_3 : Ref sig .tc := ⟨.hbm, 44, rfl⟩
abbrev main_v25 : Ref sig .tc := ⟨.hbm, 45, rfl⟩
abbrev main_v26 : Ref sig .tc := ⟨.hbm, 46, rfl⟩
abbrev main_c_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_6 : Ref sig .tc := ⟨.hbm, 62, rfl⟩
abbrev main_v40 : Ref sig .tc := ⟨.hbm, 63, rfl⟩
abbrev main_v41 : Ref sig .tc := ⟨.hbm, 64, rfl⟩
abbrev main_c_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_8 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg9_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem9_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S50000x1 : S_.BroadcastsInDim S50000x1 (![] : Fin 0 → Fin S50000x1.rank)
  bcast_S1600000_S1600000x1_0 : S1600000.BroadcastsInDim S1600000x1 (![0] : Fin 1 → Fin S1600000x1.rank)
  bitsLt_bf16_f32 : FTy.bits .bf16 < FTy.bits .f32
  shapeCasts_S128_S1x128 : S128.ShapeCasts S1x128
  bcast_S_S1600000 : S_.BroadcastsInDim S1600000 (![] : Fin 0 → Fin S1600000.rank)
  bcast_S_S50000x128 : S_.BroadcastsInDim S50000x128 (![] : Fin 0 → Fin S50000x128.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128x1_S1x128 : S128x1.ShapeCasts S1x128
  shapeCasts_S1_S1x1 : S1.ShapeCasts S1x1
  reduces_S5000x128_S5000 : S5000x128.Reduces [1] S5000
  shapeCasts_S5000_S5000x1 : S5000.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S500000x1_S500000 : S500000x1.ShapeCasts S500000
  scatter_S50000x1_S1600000x1_S1600000x1_1_0_0_1_wf : ScatterDims.WF S50000x1 S1600000x1 S1600000x1 [1] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  gather_S50000x128_S500000x1_S500000x128_1_0_n_n_0_1_1128_wf : GatherDims.WF S50000x128 S500000x1 S500000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S500000x128.size a
  hwx2_0 : ∀ i : grid2.Coords, EltTy.bits .f32 = 32 ∨ (Rect.block (s := S500000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S500000x128.size a
  hwx2_1 : ∀ i : grid2.Coords, EltTy.bits .f32 = 32 ∨ (Rect.block (s := S500000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S500000x128.size a
  hwx2_2 : ∀ i : grid2.Coords, EltTy.bits .f32 = 32 ∨ (Rect.block (s := S500000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .bf16 = 32 ∨ (Rect.block (s := S128x128) S128x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x1.size a ≤ S500000x1.size a
  hwx2_9 : ∀ i : grid2.Coords, EltTy.bits .f32 = 32 ∨ (Rect.block (s := S500000x1) S5000x1.size (cc2_transform_9 i) (hinb2_9 i)).WholeWords (EltTy.packing .f32)

variable [Facts₀]

def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v21) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v55) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v60) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v61) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v62) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v63) S5000x1.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S2x500000 : Shape := ⟨2, ![2, 500000]⟩
abbrev S500000x128 : Shape := ⟨2, ![500000, 128]⟩
abbrev S128x128 : Shape := ⟨2, ![128, 128]⟩
abbrev S128 : Shape := ⟨1, ![128]⟩
abbrev S384x128 : Shape := ⟨2, ![384, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S50000x1 : Shape := ⟨2, ![50000, 1]⟩
abbrev S1x128 : Shape := ⟨2, ![1, 128]⟩
abbrev S1x500000 : Shape := ⟨2, ![1, 500000]⟩
abbrev S500000 : Shape := ⟨1, ![500000]⟩
abbrev S500000x1 : Shape := ⟨2, ![500000, 1]⟩
abbrev S500000x384 : Shape := ⟨2, ![500000, 384]⟩
abbrev S1x1 : Shape := ⟨2, ![1, 1]⟩

abbrev nBuf : Space → Nat
  | .hbm => 119
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S2x500000, .i32⟩
  | .hbm, ⟨3, _⟩ => ⟨S500000x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S384x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S50000x128, .f32⟩
  | .hbm, ⟨29, _⟩ => ⟨S1600000x1, .i32⟩
  | .hbm, ⟨30, _⟩ => ⟨S50000x128, .f32⟩
  | .hbm, ⟨31, _⟩ => ⟨S_, .f32⟩
  | .hbm, ⟨32, _⟩ => ⟨S1600000x1, .f32⟩
  | .hbm, ⟨33, _⟩ => ⟨S_, .f32⟩
  | .hbm, ⟨34, _⟩ => ⟨S50000x1, .f32⟩
  | .hbm, ⟨35, _⟩ => ⟨S1600000x1, .i32⟩
  | .hbm, ⟨36, _⟩ => ⟨S50000x1, .f32⟩
  | .hbm, ⟨37, _⟩ => ⟨S_, .f32⟩
  | .hbm, ⟨38, _⟩ => ⟨S50000x1, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S50000x128, .f32⟩
  | .hbm, ⟨62, _⟩ => ⟨S1600000x1, .i32⟩
  | .hbm, ⟨63, _⟩ => ⟨S50000x128, .f32⟩
  | .hbm, ⟨64, _⟩ => ⟨S_, .f32⟩
  | .hbm, ⟨65, _⟩ => ⟨S1600000x1, .f32⟩
  | .hbm, ⟨66, _⟩ => ⟨S_, .f32⟩
  | .hbm, ⟨67, _⟩ => ⟨S50000x1, .f32⟩
  | .hbm, ⟨68, _⟩ => ⟨S1600000x1, .i32⟩
  | .hbm, ⟨69, _⟩ => ⟨S50000x1, .f32⟩
  | .hbm, ⟨70, _⟩ => ⟨S_, .f32⟩
  | .hbm, ⟨71, _⟩ => ⟨S50000x1, .f32⟩
  | .hbm, ⟨72, _⟩ => ⟨S50000x1, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S50000x128, .f32⟩
  | .hbm, ⟨83, _⟩ => ⟨S50000x128, .f32⟩
  | .hbm, ⟨84, _⟩ => ⟨S1x500000, .i32⟩
  | .hbm, ⟨85, _⟩ => ⟨S500000, .i32⟩
  | .hbm, ⟨86, _⟩ => ⟨S1x500000, .i32⟩
  | .hbm, ⟨87, _⟩ => ⟨S500000, .i32⟩
  | .hbm, ⟨88, _⟩ => ⟨S_, .i32⟩
  | .hbm, ⟨89, _⟩ => ⟨S500000, .i32⟩
  | .hbm, ⟨90, _⟩ => ⟨S500000, .i1⟩
  | .hbm, ⟨91, _⟩ => ⟨S_, .i32⟩
  | .hbm, ⟨92, _⟩ => ⟨S500000, .i32⟩
  | .hbm, ⟨93, _⟩ => ⟨S500000, .i32⟩
  | .hbm, ⟨94, _⟩ => ⟨S500000, .i32⟩
  | .hbm, ⟨95, _⟩ => ⟨S500000x1, .i32⟩
  | .hbm, ⟨96, _⟩ => ⟨S500000x128, .f32⟩
  | .hbm, ⟨97, _⟩ => ⟨S_, .i32⟩
  | .hbm, ⟨98, _⟩ => ⟨S500000, .i32⟩
  | .hbm, ⟨99, _⟩ => ⟨S500000, .i1⟩
  | .hbm, ⟨100, _⟩ => ⟨S_, .i32⟩
  | .hbm, ⟨101, _⟩ => ⟨S500000, .i32⟩
  | .hbm, ⟨102, _⟩ => ⟨S500000, .i32⟩
  | .hbm, ⟨103, _⟩ => ⟨S500000, .i32⟩
  | .hbm, ⟨104, _⟩ => ⟨S500000x1, .i32⟩
  | .hbm, ⟨105, _⟩ => ⟨S500000x128, .f32⟩
  | .hbm, ⟨106, _⟩ => ⟨S500000x384, .f32⟩
  | .hbm, ⟨107, _⟩ => ⟨S500000x128, .f32⟩
  | .hbm, ⟨108, _⟩ => ⟨S1x128, .f32⟩
  | .hbm, ⟨109, _⟩ => ⟨S500000x128, .f32⟩
  | .hbm, ⟨110, _⟩ => ⟨S500000x128, .f32⟩
  | .hbm, ⟨111, _⟩ => ⟨S_, .f32⟩
  | .hbm, ⟨112, _⟩ => ⟨S500000x128, .f32⟩
  | .hbm, ⟨113, _⟩ => ⟨S500000x128, .f32⟩
  | .hbm, ⟨114, _⟩ => ⟨S500000x1, .f32⟩
  | .hbm, ⟨115, _⟩ => ⟨S1x1, .f32⟩
  | .hbm, ⟨116, _⟩ => ⟨S500000x1, .f32⟩
  | .hbm, ⟨117, _⟩ => ⟨S500000x1, .f32⟩
  | .hbm, ⟨118, _⟩ => ⟨S500000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call0_cst : Ref sig .tc := ⟨.hbm, 48, rfl⟩
abbrev main_call0_v0 : Ref sig .tc := ⟨.hbm, 49, rfl⟩
abbrev main_v28 : Ref sig .tc := ⟨.hbm, 50, rfl⟩
abbrev main_c_4 : Ref sig .tc := ⟨.hbm, 51, rfl⟩
abbrev main_v29 : Ref sig .tc := ⟨.hbm, 52, rfl⟩
abbrev main_v30 : Ref sig .tc := ⟨.hbm, 53, rfl⟩
abbrev main_c_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_cst_8 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call1_cst : Ref sig .tc := ⟨.hbm, 81, rfl⟩
abbrev main_call1_v0 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_10 : Ref sig .tc := ⟨.hbm, 88, rfl⟩
abbrev main_v58 : Ref sig .tc := ⟨.hbm, 89, rfl⟩
abbrev main_v59 : Ref sig .tc := ⟨.hbm, 90, rfl⟩
abbrev main_c_11 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_12 : Ref sig .tc := ⟨.hbm, 97, rfl⟩
abbrev main_v65 : Ref sig .tc := ⟨.hbm, 98, rfl⟩
abbrev main_v66 : Ref sig .tc := ⟨.hbm, 99, rfl⟩
abbrev main_c_13 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_call2_cst : Ref sig .tc := ⟨.hbm, 111, rfl⟩
abbrev main_call2_v0 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S1600000x1 : S_.BroadcastsInDim S1600000x1 (![] : Fin 0 → Fin S1600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x384_d1 : Shape.Concatenates [S500000x128, S500000x128, S500000x128] S500000x384 1
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000x1_S1600000x1_S1600000x1_1_0_0_1_wf : ScatterDims.WF S50000x1 S1600000x1 S1600000x1 [1] [0] [0] 1
  dot_S50000x128_S128x128_S50000x128_1_0_0_1_n_n_wf : DotDims.WF S50000x128 S128x128 S50000x128 [1] [0] [0] [1] [] []
  gather_S50000x128_S500000x1_S500000x128_1_0_n_n_0_1_1128_wf : GatherDims.WF S50000x128 S500000x1 S500000x128 [1] [0] [] [0] [] 1 ![1, 128]
  dot_S500000x384_S384x128_S500000x128_1_0_0_1_n_n_wf : DotDims.WF S500000x384 S384x128 S500000x128 [1] [0] [0] [1] [] []
  dot_S500000x128_S128x1_S500000x1_1_0_0_1_n_n_wf : DotDims.WF S500000x128 S128x1 S500000x1 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x384_S384x128_S500000x128_1_0_0_1_n_n : DotDims S500000x384 S384x128 S500000x128 where
  lhsContracting := [1]
  rhsContracting := [0]
  lhsNonContracting := [0]
  rhsNonContracting := [1]
  lhsBatch := []
  rhsBatch := []
  wf := dot_S500000x384_S384x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf

class Facts : Prop extends Facts₀ where

variable [Facts]
-- ==== Proof.Spec.lean ====
/-
  The mathematics of the link predictor, as functions on the extended reals.

  A mean-aggregation graph layer sends node p's feature row x_p, the sum a_p of its in-neighbours'
  rows and its in-degree d_p to
      relu( (a_p / max(d_p, 1)) · W_l  +  x_p · W_r  +  b ),
  one entry per output channel q; each entry depends on ONE row of x and of a and on one degree.
  The link head sends the two endpoint rows z_u, z_v and the pair's attribute row e to
      relu( z_u · W_u + z_v · W_v + e · W_e + b₁ ) · w₂  +  b₂ ,
  where W_u, W_v, W_e are the three 128-row bands of one 384-row weight matrix; so the head of
  the concatenated row [z_u | z_v | e] against the whole matrix is the same number: a sum over
  384 positions is the sum of its three bands (`sum_three_bands`), in any commutative monoid, the
  extended reals included.
-/
import Idealize.ShloMosaic.PureOps.Ideal
import Idealize.ShloMosaic.Lib.ValueIdx

noncomputable section

open scoped BigOperators

namespace Cert.Sage

open Idealize.ShloMosaic Idealize.ShloMosaic.ValueIdx

/-- A matrix of extended reals with literal extents. -/
abbrev Mat (a b : ℕ) : Type := (⟨2, ![a, b]⟩ : Shape).Idx → EReal
/-- A vector of extended reals with a literal extent. -/
abbrev Vect (a : ℕ) : Type := (⟨1, ![a]⟩ : Shape).Idx → EReal

/-- The literal 1.0 as both programs print it. -/
abbrev one : EReal := Ideal.ofBits .f32 0x3F800000#32
/-- The literal 0.0 as both programs print it. -/
abbrev zero : EReal := Ideal.ofBits .f32 0x00000000#32

/-- Channel `q` of one layer's output row, from the node's own row `xr`, its neighbour sum `ar` and its
    degree `d`: the mean `ar / max d 1` against `wl`, the row against `wr`, the bias, clamped at 0. -/
def layerRow (xr ar : Fin 128 → EReal) (d : EReal) (wl wr : Mat 128 128) (b : Fin 128 → EReal) (q : Fin 128) : EReal :=
  max ((∑ j : Fin 128, Ideal.div (ar j) (max d one) * wl (ix2 j q)) + (∑ j : Fin 128, xr j * wr (ix2 j q)) + b q) zero

/-- One layer on all `n` nodes. -/
def layer {n : ℕ} (x agg : Mat n 128) (deg : Mat n 1) (wl wr : Mat 128 128) (b : Fin 128 → EReal) : Mat n 128 :=
  fun i => layerRow (fun j => x (ix2 (i 0) j)) (fun j => agg (ix2 (i 0) j)) (deg (ix2 (i 0) (0 : Fin 1))) wl wr b (i 1)

theorem layer_apply {n : ℕ} (x agg : Mat n 128) (deg : Mat n 1) (wl wr : Mat 128 128) (b : Fin 128 → EReal) (p : Fin n) (q : Fin 128) :
    layer x agg deg wl wr b (ix2 p q)
      = layerRow (fun j => x (ix2 p j)) (fun j => agg (ix2 p j)) (deg (ix2 p (0 : Fin 1))) wl wr b q := rfl

/-- Row `j` of the first, second, third band of a 384-row matrix. -/
abbrev band0 (j : Fin 128) : Fin 384 := ⟨j.val, by omega⟩
abbrev band1 (j : Fin 128) : Fin 384 := ⟨128 + j.val, by omega⟩
abbrev band2 (j : Fin 128) : Fin 384 := ⟨256 + j.val, by omega⟩

/-- The link score of one pair from its three rows. -/
def headRow (zu zv ea : Fin 128 → EReal) (wu wv we : Fin 128 → Fin 128 → EReal) (b1 w2 : Fin 128 → EReal) (b2 : EReal) : EReal :=
  (∑ c : Fin 128, max ((∑ j : Fin 128, zu j * wu j c) + (∑ j : Fin 128, zv j * wv j c) + (∑ j : Fin 128, ea j * we j c) + b1 c) zero
      * w2 c) + b2

/-- The link scores of all `n` pairs, as a column. -/
def head {n : ℕ} (zu zv ea : Mat n 128) (wu wv we : Fin 128 → Fin 128 → EReal) (b1 w2 : Fin 128 → EReal) (b2 : EReal) : Mat n 1 :=
  fun i => headRow (fun j => zu (ix2 (i 0) j)) (fun j => zv (ix2 (i 0) j)) (fun j => ea (ix2 (i 0) j)) wu wv we b1 w2 b2

theorem head_apply {n : ℕ} (zu zv ea : Mat n 128) (wu wv we : Fin 128 → Fin 128 → EReal) (b1 w2 : Fin 128 → EReal) (b2 : EReal)
    (p : Fin n) (u : Fin 1) :
    head zu zv ea wu wv we b1 w2 b2 (ix2 p u)
      = headRow (fun j => zu (ix2 p j)) (fun j => zv (ix2 p j)) (fun j => ea (ix2 p j)) wu wv we b1 w2 b2 := rfl

/-- A sum over 384 positions is the sum of its three bands of 128. -/
theorem sum_three_bands {M : Type*} [AddCommMonoid M] (f : Fin 384 → M) :
    ∑ k : Fin 384, f k = (∑ j : Fin 128, f (band0 j)) + (∑ j : Fin 128, f (band1 j)) + ∑ j : Fin 128, f (band2 j) := by
  rw [show (∑ k : Fin 384, f k) = ∑ k : Fin (128 + 128 + 128), f k from rfl, Fin.sum_univ_add, Fin.sum_univ_add]
  rfl

end Cert.Sage

end
-- ==== Proof.Model.lean ====
/-
  The whole computation as one function of the fourteen arguments.

  Both programs do the irregular part — the edge list's two rows made into index columns (a negative index wrapped
  by the node count), rows gathered at the sources, rows added up at the destinations, the in-degree as the same
  sum of ones, the two endpoint rows of every pair gathered — with the SAME host operations, so these are kept as
  opaque compositions of those operations: nothing in the proof looks inside a gather or a scatter. What differs
  between the programs is the dense part, which is the specification's `layer` and `head`.
-/
import proofs.«141580_j18348100288600_2_alg».proof.Proof.Gen.KernelIdeal
import proofs.«141580_j18348100288600_2_alg».proof.Proof.Spec

noncomputable section

namespace Cert.Sage

open Cert.KernelIdeal Cert.KernelIdeal.Facts₀ Idealize.ShloMosaic Idealize.ShloMosaic.ValueIdx

/-- Row `r` of the edge list as a vector (r = 0: sources, r = 1: destinations). -/
def edgeRow0 (ei : (⟨S2x1600000, .i32⟩ : BufTy).Contents (Elt Ideal)) : (⟨S1600000, .i32⟩ : BufTy).Contents (Elt Ideal) :=
  shapeCast _ (extractStridedSlice S1x1600000 ![0, 0] ei slices_S2x1600000_S1x1600000_0_0) shapeCasts_S1x1600000_S1600000
def edgeRow1 (ei : (⟨S2x1600000, .i32⟩ : BufTy).Contents (Elt Ideal)) : (⟨S1600000, .i32⟩ : BufTy).Contents (Elt Ideal) :=
  shapeCast _ (extractStridedSlice S1x1600000 ![1, 0] ei slices_S2x1600000_S1x1600000_1_0) shapeCasts_S1x1600000_S1600000

/-- A vector of sources as a gather's index column: a negative index has the node count added. -/
def srcColOf (s : (⟨S1600000, .i32⟩ : BufTy).Contents (Elt Ideal)) : (⟨S1600000x1, .i32⟩ : BufTy).Contents (Elt Ideal) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 50000#32))) s)

/-- A vector of destinations as a scatter's index column. -/
def dstColOf (d : (⟨S1600000, .i32⟩ : BufTy).Contents (Elt Ideal)) : (⟨S1600000x1, .i32⟩ : BufTy).Contents (Elt Ideal) :=
  broadcastInDim S1600000x1 ![0] bcast_S1600000_S1600000x1_0 d

/-- The sources / destinations of the edge list as index columns. -/
def srcCol (ei : (⟨S2x1600000, .i32⟩ : BufTy).Contents (Elt Ideal)) : (⟨S1600000x1, .i32⟩ : BufTy).Contents (Elt Ideal) :=
  srcColOf (edgeRow0 ei)
def dstCol (ei : (⟨S2x1600000, .i32⟩ : BufTy).Contents (Elt Ideal)) : (⟨S1600000x1, .i32⟩ : BufTy).Contents (Elt Ideal) :=
  dstColOf (edgeRow1 ei)

/-- Every node's in-degree: ones added up at the destinations. -/
def degree (ei : (⟨S2x1600000, .i32⟩ : BufTy).Contents (Elt Ideal)) : (⟨S50000x1, .f32⟩ : BufTy).Contents (Elt Ideal) :=
  Host.scatterAdd (F := Ideal) scatter_S50000x1_S1600000x1_S1600000x1_1_0_0_1
    (broadcastInDim S50000x1 ![] bcast_S_S50000x1 (constant (F := Ideal) S_ .f32 0x00000000#32)) (dstCol ei)
    (broadcastInDim S1600000x1 ![] bcast_S_S1600000x1 (constant (F := Ideal) S_ .f32 0x3F800000#32))

/-- Every node's sum of its in-neighbours' rows, from the two edge vectors: the rows at the sources added up at the
    destinations. -/
def nsumRows (x : (⟨S50000x128, .f32⟩ : BufTy).Contents (Elt Ideal)) (s d : (⟨S1600000, .i32⟩ : BufTy).Contents (Elt Ideal)) :
    (⟨S50000x128, .f32⟩ : BufTy).Contents (Elt Ideal) :=
  Host.scatterAdd (F := Ideal) scatter_S50000x128_S1600000x1_S1600000x128_1_0_0_1
    (broadcastInDim S50000x128 ![] bcast_S_S50000x128 (constant (F := Ideal) S_ .f32 0x00000000#32)) (dstColOf d)
    (Host.gather gather_S50000x128_S1600000x1_S1600000x128_1_0_n_n_0_1_1128 x (srcColOf s))

/-- The same from the edge list. -/
def neighbourSum (x : (⟨S50000x128, .f32⟩ : BufTy).Contents (Elt Ideal)) (ei : (⟨S2x1600000, .i32⟩ : BufTy).Contents (Elt Ideal)) :
    (⟨S50000x128, .f32⟩ : BufTy).Contents (Elt Ideal) :=
  nsumRows x (edgeRow0 ei) (edgeRow1 ei)

/-- Row 0 / row 1 of the pair list as a vector. -/
def pairRow0 (ep : (⟨S2x500000, .i32⟩ : BufTy).Contents (Elt Ideal)) : (⟨S500000, .i32⟩ : BufTy).Contents (Elt Ideal) :=
  shapeCast _ (extractStridedSlice S1x500000 ![0, 0] ep slices_S2x500000_S1x500000_0_0) shapeCasts_S1x500000_S500000
def pairRow1 (ep : (⟨S2x500000, .i32⟩ : BufTy).Contents (Elt Ideal)) : (⟨S500000, .i32⟩ : BufTy).Contents (Elt Ideal) :=
  shapeCast _ (extractStridedSlice S1x500000 ![1, 0] ep slices_S2x500000_S1x500000_1_0) shapeCasts_S1x500000_S500000

/-- An endpoint vector as a gather's index column, a negative index wrapped. -/
def endCol (v : (⟨S500000, .i32⟩ : BufTy).Contents (Elt Ideal)) : (⟨S500000x1, .i32⟩ : BufTy).Contents (Elt Ideal) :=
  broadcastInDim S500000x1 ![0] bcast_S500000_S500000x1_0
    (select (cmpi .slt v (broadcastInDim S500000 ![] bcast_S_S500000 (constantI S_ 32 0#32)))
      (addi v (broadcastInDim S500000 ![] bcast_S_S500000 (constantI S_ 32 50000#32))) v)

/-- The rows of `z` at an endpoint vector. -/
def endRows (z : (⟨S50000x128, .f32⟩ : BufTy).Contents (Elt Ideal)) (v : (⟨S500000, .i32⟩ : BufTy).Contents (Elt Ideal)) :
    (⟨S500000x128, .f32⟩ : BufTy).Contents (Elt Ideal) :=
  Host.gather gather_S50000x128_S500000x1_S500000x128_1_0_n_n_0_1_1128 z (endCol v)

/-- One graph layer from the node features: the specification's `layer` on the neighbour sums and degrees. -/
def conv (x : (⟨S50000x128, .f32⟩ : BufTy).Contents (Elt Ideal)) (ei : (⟨S2x1600000, .i32⟩ : BufTy).Contents (Elt Ideal))
    (wl wr : (⟨S128x128, .f32⟩ : BufTy).Contents (Elt Ideal)) (b : (⟨S128, .f32⟩ : BufTy).Contents (Elt Ideal)) :
    (⟨S50000x128, .f32⟩ : BufTy).Contents (Elt Ideal) :=
  layer x (neighbourSum x ei) (degree ei) wl wr (fun q => b (ix1 q))

/-- The scores of all pairs as a column: two layers, the endpoint rows, the head. -/
def scoresCol (x : (⟨S50000x128, .f32⟩ : BufTy).Contents (Elt Ideal)) (ei : (⟨S2x1600000, .i32⟩ : BufTy).Contents (Elt Ideal))
    (ep : (⟨S2x500000, .i32⟩ : BufTy).Contents (Elt Ideal)) (ea : (⟨S500000x128, .f32⟩ : BufTy).Contents (Elt Ideal))
    (w1l w1r : (⟨S128x128, .f32⟩ : BufTy).Contents (Elt Ideal)) (b1 : (⟨S128, .f32⟩ : BufTy).Contents (Elt Ideal))
    (w2l w2r : (⟨S128x128, .f32⟩ : BufTy).Contents (Elt Ideal)) (b2 : (⟨S128, .f32⟩ : BufTy).Contents (Elt Ideal))
    (wm1 : (⟨S384x128, .f32⟩ : BufTy).Contents (Elt Ideal)) (bm1 : (⟨S128, .f32⟩ : BufTy).Contents (Elt Ideal))
    (wm2 : (⟨S128x1, .f32⟩ : BufTy).Contents (Elt Ideal)) (bm2 : (⟨S1, .f32⟩ : BufTy).Contents (Elt Ideal)) :
    (⟨S500000x1, .f32⟩ : BufTy).Contents (Elt Ideal) :=
  head (endRows (conv (conv x ei w1l w1r b1) ei w2l w2r b2) (pairRow0 ep))
    (endRows (conv (conv x ei w1l w1r b1) ei w2l w2r b2) (pairRow1 ep)) ea
    (fun j c => wm1 (ix2 (band0 j) c)) (fun j c => wm1 (ix2 (band1 j) c)) (fun j c => wm1 (ix2 (band2 j) c))
    (fun c => bm1 (ix1 c)) (fun c => wm2 (ix2 c (0 : Fin 1))) (bm2 (ix1 (0 : Fin 1)))

end Cert.Sage

end
-- ==== Proof.KernelResult.lean ====
/-
  The idealized kernel program's run with its RESULT named.

  The program is seven segments: four stretches of host operations around three launches. The generated
  frame module follows every buffer through them (the contents at the eight boundaries, a fold from the
  launch memory) and ends with every unscoped buffer at the last boundary's contents. Here the same
  composition of the segments is stated with one more fact read off that last state: the result buffer
  holds the last boundary's contents at its reference. What those contents ARE is the value modules' work.
-/
import proofs.«141580_j18348100288600_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the composition's implicit arguments are found by unifying its conclusion with this one, which takes unfolding
-- plain definitions in a metavariable's type
set_option backward.isDefEq.respectTransparency.types false in
/-- From any memory with zero counters every weakly fair execution of the program terminates, nothing faulting,
    with the result buffer at the last boundary's contents and the argument arrays as launched. -/
theorem run_result : θ_run (defs (F := F)) (onTc (τ := τ) (main (F := F))) ⟨m, fun _ => 0, ρ⟩ (fun r => ∀ c : Dev nD,
      r.2.mem ((c.tc : Thread nD τ).loc main_v64) = W7 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v64 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c)⟩)

end Cert.KernelIdeal.Result

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.LibRowReduce.lean ====
/-
  A matrix reduced along its rows, and small values spread over a block, read at coordinates for any extents.
  • REDUCTIONS over the extended reals of an `[a, b]` vector along its LAST axis, one value per row: the sum at row `p`
    is the sum over `k` of the source at `(p, k)`, and the maximum is the fold of `max`, from the starting word's value,
    over `k` of the source at `(p, k)` (`multiReduction_add_rows`, `multiReduction_max_rows`) — what a softmax along
    the lanes of a row needs.
  • A ROW VECTOR GIVEN TWO UNIT AXES: `[1, c] → [1, 1, c]` reads `(0, 0, f)` at `(0, f)` (`shapeCast_1c_11c_apply`).
  • ONE VALUE SPREAD OVER A MATRIX: `[1, 1] → [a, b]` reads the one entry everywhere (`broadcastTo_11_ab_apply`).
-/
import Idealize.ShloMosaic.Lib.Pipeline.Value
import Idealize.ShloMosaic.Lib.ValueIdx
import Idealize.ShloMosaic.PureOps.Ideal.Laws

noncomputable section

open scoped BigOperators

namespace Cert.LibRowReduce

open Idealize.ShloMosaic Idealize.ShloMosaic.ValueIdx

variable {α : Type}

/-- A `[1, c]` row cast to `[1, 1, c]` reads, at `(u, v, f)`, the operand at `(0, f)`. -/
theorem shapeCast_1c_11c_apply {c : ℕ} (x : (⟨2, ![1, c]⟩ : Shape).Idx → α)
    (h : (⟨2, ![1, c]⟩ : Shape).ShapeCasts ⟨3, ![1, 1, c]⟩) (u v : Fin 1) (f : Fin c) :
    shapeCast ⟨3, ![1, 1, c]⟩ x h (ix3 u v f) = x (ix2 (0 : Fin 1) f) :=
  shapeCast_apply x h _ _ (by
    have hu : u.val = 0 := by omega
    have hv : v.val = 0 := by omega
    rw [Shape.rowMajor_val_three, Shape.rowMajor_val_two]
    show 0 * c + f.val = (u.val * 1 + v.val) * c + f.val
    rw [hu, hv])

/-- A `[1, 1]` array spread to `[a, b]` reads its one entry at every `(p, q)`. -/
theorem broadcastTo_11_ab_apply {a b : ℕ} (x : (⟨2, ![1, 1]⟩ : Shape).Idx → α)
    (h : (⟨2, ![1, 1]⟩ : Shape).Broadcasts ⟨2, ![a, b]⟩) (p : Fin a) (q : Fin b) :
    broadcastTo ⟨2, ![a, b]⟩ x h (ix2 p q) = x (ix2 (0 : Fin 1) (0 : Fin 1)) := by
  refine broadcastTo_apply x h (ix2 p q) (ix2 (0 : Fin 1) (0 : Fin 1)) fun ax => ?_
  match ax with
  | ⟨0, _⟩ => rfl
  | ⟨1, _⟩ => rfl

section Reductions
variable {φ : FTy}

/-- A sum along the rows of an `[a, b]` vector: at row `p`, the sum over `k` of the source at `(p, k)`. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A maximum along the rows of an `[a, b]` vector: at row `p`, the fold of `max`, from the starting word's value, over
    `k` of the source at `(p, k)`. -/
theorem multiReduction_max_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (Finset.fold_congr fun k _ => congrArg src (funext fun ax => Fin.ext (by
      match ax with
      | ⟨0, _⟩ => rfl
      | ⟨1, _⟩ => rfl)))

end Reductions

end Cert.LibRowReduce

end
-- ==== Proof.KernelPayload.lean ====
/-
  What each launch's body stores, entry by entry, on the extended reals.

  The two layer bodies store, at row p and channel q of their block, the layer's entry: the matrix unit's two
  products into zero accumulators are sums over the 128 lanes, a change of float format is the identity, the
  degree column and the bias row are spread along the block. The head's body stores, at row p, the pair's score:
  three products summed, the bias row, the clamp, the product with the output weights' row summed along the lanes,
  the output bias.
-/
import proofs.«141580_j18348100288600_2_alg».proof.Proof.Gen.KernelIdeal.Skeleton
import proofs.«141580_j18348100288600_2_alg».proof.Proof.Spec
import proofs.«141580_j18348100288600_2_alg».proof.Proof.LibMatmul
import proofs.«141580_j18348100288600_2_alg».proof.Proof.LibColumns
import proofs.«141580_j18348100288600_2_alg».proof.Proof.LibRowReduce
import Idealize.ShloMosaic.Lib.ValueLayout
import Idealize.ShloMosaic.Lib.Pipeline.Value

set_option maxRecDepth 16384

noncomputable section

open scoped BigOperators

namespace Cert.KernelIdeal.Payload

open Cert.KernelIdeal Cert.KernelIdeal.Gen Cert.Sage Idealize.ShloMosaic Idealize.ShloMosaic.ValueIdx

/-- Launch 0's stored value at row `p`, channel `q` of its block: the layer's entry from row `p` of the feature block and of the
    neighbour-sum block, the degree at `p`, the two weight matrices and the bias row. -/
theorem layer_payload0 (d : FVec Ideal S5000x1 .f32) (a x : FVec Ideal S5000x128 .f32) (wl wr : FVec Ideal S128x128 .bf16)
    (b : FVec Ideal S1x128 .f32) (p : Fin 5000) (q : Fin 128) :
    k0_pay1 (F := Ideal) d a x wl wr b (ix2 p q)
      = layerRow (fun j => x (ix2 p j)) (fun j => a (ix2 p j)) (d (ix2 p (0 : Fin 1))) wl wr (fun c => b (ix2 (0 : Fin 1) c)) q := by
  unfold k0_pay1 layerRow
  simp only [shapeCast_self, maximumf_apply, addf_apply, broadcast_apply, matmul]
  rw [matmul_zero_ix2 dot_S5000x128_S128x128_S5000x128_1_0_0_1_n_n rfl rfl rfl rfl rfl rfl, matmul_zero_ix2 dot_S5000x128_S128x128_S5000x128_1_0_0_1_n_n rfl rfl rfl rfl rfl rfl,
    broadcastTo_1b_ab_apply]
  simp only [truncf_apply, divf_apply, maximumf_apply, broadcast_apply, broadcastTo_a1_ab_apply]
  rfl

/-- Launch 1's stored value at row `p`, channel `q` of its block: the layer's entry from row `p` of the feature block and of the
    neighbour-sum block, the degree at `p`, the two weight matrices and the bias row. -/
theorem layer_payload1 (d : FVec Ideal S5000x1 .f32) (a x : FVec Ideal S5000x128 .f32) (wl wr : FVec Ideal S128x128 .bf16)
    (b : FVec Ideal S1x128 .f32) (p : Fin 5000) (q : Fin 128) :
    k1_pay1 (F := Ideal) d a x wl wr b (ix2 p q)
      = layerRow (fun j => x (ix2 p j)) (fun j => a (ix2 p j)) (d (ix2 p (0 : Fin 1))) wl wr (fun c => b (ix2 (0 : Fin 1) c)) q := by
  unfold k1_pay1 layerRow
  simp only [shapeCast_self, maximumf_apply, addf_apply, broadcast_apply, matmul]
  rw [matmul_zero_ix2 dot_S5000x128_S128x128_S5000x128_1_0_0_1_n_n rfl rfl rfl rfl rfl rfl, matmul_zero_ix2 dot_S5000x128_S128x128_S5000x128_1_0_0_1_n_n rfl rfl rfl rfl rfl rfl,
    broadcastTo_1b_ab_apply]
  simp only [truncf_apply, divf_apply, maximumf_apply, broadcast_apply, broadcastTo_a1_ab_apply]
  rfl

/-- The last launch's stored value at row `p` of its block: the pair's score from row `p` of the two endpoint blocks
    and of the attribute block. -/
theorem head_payload (zu zv ea : FVec Ideal S5000x128 .f32) (wu wv we : FVec Ideal S128x128 .bf16) (b1 w2 : FVec Ideal S1x128 .f32)
    (b2 : FVec Ideal S1x1 .f32) (p : Fin 5000) (u : Fin 1) :
    k2_pay1 (F := Ideal) zu zv ea wu wv we b1 w2 b2 (ix2 p u)
      = headRow (fun j => zu (ix2 p j)) (fun j => zv (ix2 p j)) (fun j => ea (ix2 p j))
          (fun j c => wu (ix2 j c)) (fun j c => wv (ix2 j c)) (fun j c => we (ix2 j c))
          (fun c => b1 (ix2 (0 : Fin 1) c)) (fun c => w2 (ix2 (0 : Fin 1) c)) (b2 (ix2 (0 : Fin 1) (0 : Fin 1))) := by
  unfold k2_pay1 headRow
  simp only [shapeCast_self, addf_apply]
  rw [shapeCast_a_a1_apply, Cert.LibRowReduce.broadcastTo_11_ab_apply]
  refine congrArg (· + _) ?_
  refine (Cert.LibRowReduce.multiReduction_add_rows _ _ _ _ _ p).trans ?_
  refine Finset.sum_congr rfl fun c _ => ?_
  simp only [mulf_apply, maximumf_apply, addf_apply, broadcast_apply, matmul]
  rw [matmul_zero_ix2 dot_S5000x128_S128x128_S5000x128_1_0_0_1_n_n rfl rfl rfl rfl rfl rfl, matmul_zero_ix2 dot_S5000x128_S128x128_S5000x128_1_0_0_1_n_n rfl rfl rfl rfl rfl rfl,
    matmul_zero_ix2 dot_S5000x128_S128x128_S5000x128_1_0_0_1_n_n rfl rfl rfl rfl rfl rfl, broadcastTo_1b_ab_apply, broadcastTo_1b_ab_apply]
  simp only [truncf_apply]
  rfl

end Cert.KernelIdeal.Payload

end
-- ==== Proof.KernelBlocks0.lean ====
/-
  Launch 0 (a graph layer over all nodes, ten blocks of 5000 rows): what its output array holds after the launch,
  for ANY contents the launch is entered with.

  Block t of the feature array, of the neighbour-sum array and of the degree column is rows 5000·t … 5000·t + 4999;
  the two weight matrices and the bias row are read whole at every point. The body stores the layer's entry for each
  row of its block, and an entry depends only on its own row; so what point t writes back is block t of the layer
  of the whole arrays, and the ten blocks tile the 50000 rows.
-/
import proofs.«141580_j18348100288600_2_alg».proof.Proof.Gen.KernelIdeal.Frame
import proofs.«141580_j18348100288600_2_alg».proof.Proof.KernelPayload
import Idealize.ShloMosaic.Lib.Pipeline.Value

set_option maxRecDepth 16384

noncomputable section

namespace Cert.KernelIdeal.Blocks0

open Cert.KernelIdeal Cert.KernelIdeal.Gen Cert.Sage Idealize.ShloMosaic Idealize.ShloMosaic.ValueIdx Idealize.ShloMosaic.TcCoe
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three per-row windows and the output move one block per point, the
    weights and the bias stay put. -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `r` of the feature block at point `t` is row `5000·t + r` of the feature array. -/
theorem blkX (c : Dev nD) (t : Fin cfg0.N) (x : S5000x128.Idx) (i : S50000x128.Idx)
    (h0 : (i 0).val = 5000 * t.val + (x 0).val) (h1 : (i 1).val = (x 1).val) :
    (iblk0 V c 0 t : Vec Ideal S5000x128 .f32) x = (V c main_arg0 : S50000x128.Idx → EReal) i := by
  obtain ⟨e0, e1, -⟩ := idx t
  unfold iblk0
  rw [View.read_apply]
  show V c main_arg0 _ = V c main_arg0 _
  congr 1
  funext a
  apply Fin.ext
  match a with
  | ⟨0, _⟩ => show win0_0.index t (0 : Fin 2) * 5000 + 1 * (x 0).val = (i 0).val; rw [e0, h0]; omega
  | ⟨1, _⟩ => show win0_0.index t (1 : Fin 2) * 128 + 1 * (x 1).val = (i 1).val; rw [e1, h1]; omega

/-- The same for the neighbour-sum block. -/
theorem blkA (c : Dev nD) (t : Fin cfg0.N) (x : S5000x128.Idx) (i : S50000x128.Idx)
    (h0 : (i 0).val = 5000 * t.val + (x 0).val) (h1 : (i 1).val = (x 1).val) :
    (iblk0 V c 1 t : Vec Ideal S5000x128 .f32) x = (V c main_v20 : S50000x128.Idx → EReal) i := by
  obtain ⟨-, -, e0, e1, -⟩ := idx t
  unfold iblk0
  rw [View.read_apply]
  show V c main_v20 _ = V c main_v20 _
  congr 1
  funext a
  apply Fin.ext
  match a with
  | ⟨0, _⟩ => show win0_1.index t (0 : Fin 2) * 5000 + 1 * (x 0).val = (i 0).val; rw [e0, h0]; omega
  | ⟨1, _⟩ => show win0_1.index t (1 : Fin 2) * 128 + 1 * (x 1).val = (i 1).val; rw [e1, h1]; omega

/-- The same for the degree column's block. -/
theorem blkD (c : Dev nD) (t : Fin cfg0.N) (x : S5000x1.Idx) (i : S50000x1.Idx)
    (h0 : (i 0).val = 5000 * t.val + (x 0).val) (h1 : (i 1).val = (x 1).val) :
    (iblk0 V c 2 t : Vec Ideal S5000x1 .f32) x = (V c main_v7 : S50000x1.Idx → EReal) i := by
  obtain ⟨-, -, -, -, e0, e1, -⟩ := idx t
  unfold iblk0
  rw [View.read_apply]
  show V c main_v7 _ = V c main_v7 _
  congr 1
  funext a
  apply Fin.ext
  match a with
  | ⟨0, _⟩ => show win0_2.index t (0 : Fin 2) * 5000 + 1 * (x 0).val = (i 0).val; rw [e0, h0]; omega
  | ⟨1, _⟩ => show win0_2.index t (1 : Fin 2) * 1 + 1 * (x 1).val = (i 1).val; rw [e1, h1]; omega

/-- The weight matrices and the bias row are read whole at every point. -/
theorem blkWl (c : Dev nD) (t : Fin cfg0.N) :
    (iblk0 V c 3 t : Vec Ideal S128x128 .bf16) = (V c main_v8 : S128x128.Idx → EReal) := by
  obtain ⟨-, -, -, -, -, -, e0, e1, -⟩ := idx t
  funext x
  unfold iblk0
  rw [View.read_apply]
  show V c main_v8 _ = V c main_v8 _
  congr 1
  funext a
  apply Fin.ext
  match a with
  | ⟨0, _⟩ => show win0_3.index t (0 : Fin 2) * 128 + 1 * (x 0).val = (x 0).val; rw [e0]; omega
  | ⟨1, _⟩ => show win0_3.index t (1 : Fin 2) * 128 + 1 * (x 1).val = (x 1).val; rw [e1]; omega

theorem blkWr (c : Dev nD) (t : Fin cfg0.N) :
    (iblk0 V c 4 t : Vec Ideal S128x128 .bf16) = (V c main_v9 : S128x128.Idx → EReal) := by
  obtain ⟨-, -, -, -, -, -, -, -, e0, e1, -⟩ := idx t
  funext x
  unfold iblk0
  rw [View.read_apply]
  show V c main_v9 _ = V c main_v9 _
  congr 1
  funext a
  apply Fin.ext
  match a with
  | ⟨0, _⟩ => show win0_4.index t (0 : Fin 2) * 128 + 1 * (x 0).val = (x 0).val; rw [e0]; omega
  | ⟨1, _⟩ => show win0_4.index t (1 : Fin 2) * 128 + 1 * (x 1).val = (x 1).val; rw [e1]; omega

theorem blkB (c : Dev nD) (t : Fin cfg0.N) :
    (iblk0 V c 5 t : Vec Ideal S1x128 .f32) = (V c main_v10 : S1x128.Idx → EReal) := by
  obtain ⟨-, -, -, -, -, -, -, -, -, -, e0, e1, -⟩ := idx t
  funext x
  unfold iblk0
  rw [View.read_apply]
  show V c main_v10 _ = V c main_v10 _
  congr 1
  funext a
  apply Fin.ext
  match a with
  | ⟨0, _⟩ => show win0_5.index t (0 : Fin 2) * 1 + 1 * (x 0).val = (x 0).val; rw [e0]; omega
  | ⟨1, _⟩ => show win0_5.index t (1 : Fin 2) * 128 + 1 * (x 1).val = (x 1).val; rw [e1]; omega

/-- The layer of the arrays the launch is entered with. -/
def G (c : Dev nD) : S50000x128.Idx → EReal :=
  layer (V c main_arg0 : S50000x128.Idx → EReal) (V c main_v20 : S50000x128.Idx → EReal) (V c main_v7 : S50000x1.Idx → EReal)
    (V c main_v8 : S128x128.Idx → EReal) (V c main_v9 : S128x128.Idx → EReal)
    (fun q => (V c main_v10 : S1x128.Idx → EReal) (ix2 (0 : Fin 1) q))

/-- What the body stores at entry `y` of its block at point `t` is the layer's entry at the array index the block's
    rectangle sends `y` to. -/
theorem stored (c : Dev nD) (t : Fin cfg0.N) (y : S5000x128.Idx) (i : S50000x128.Idx)
    (h0 : (i 0).val = 5000 * t.val + (y 0).val) (h1 : (i 1).val = (y 1).val) :
    k0_pay1 (F := Ideal) (iblk0 V c 2 t) (iblk0 V c 1 t) (iblk0 V c 0 t) (iblk0 V c 3 t) (iblk0 V c 4 t) (iblk0 V c 5 t) y
      = G V c i := by
  obtain ⟨p, q, rfl⟩ : ∃ (p : Fin 5000) (q : Fin 128), y = ix2 p q := ⟨y 0, y 1, eq_ix2 y⟩
  obtain ⟨P, Q, rfl⟩ : ∃ (P : Fin 50000) (Q : Fin 128), i = ix2 P Q := ⟨i 0, i 1, eq_ix2 i⟩
  have hP : P.val = 5000 * t.val + p.val := h0
  obtain rfl : Q = q := Fin.ext h1
  refine (Payload.layer_payload0 (iblk0 V c 2 t) (iblk0 V c 1 t) (iblk0 V c 0 t) (iblk0 V c 3 t) (iblk0 V c 4 t)
    (iblk0 V c 5 t) p Q).trans ?_
  unfold G
  rw [layer_apply]
  have eX : (fun j : Fin 128 => (iblk0 V c 0 t : Vec Ideal S5000x128 .f32) (ix2 p j))
      = fun j : Fin 128 => (V c main_arg0 : S50000x128.Idx → EReal) (ix2 P j) :=
    funext fun j => blkX V c t (ix2 p j) (ix2 P j) hP rfl
  have eA : (fun j : Fin 128 => (iblk0 V c 1 t : Vec Ideal S5000x128 .f32) (ix2 p j))
      = fun j : Fin 128 => (V c main_v20 : S50000x128.Idx → EReal) (ix2 P j) :=
    funext fun j => blkA V c t (ix2 p j) (ix2 P j) hP rfl
  have eD : (iblk0 V c 2 t : Vec Ideal S5000x1 .f32) (ix2 p (0 : Fin 1)) = (V c main_v7 : S50000x1.Idx → EReal) (ix2 P (0 : Fin 1)) :=
    blkD V c t (ix2 p (0 : Fin 1)) (ix2 P (0 : Fin 1)) hP rfl
  rw [eX, eA, eD, blkWl V c t, blkWr V c t, blkB V c t]

/-- WHAT POINT `t` WRITES BACK is block `t` of the layer of the arrays the launch is entered with. -/
theorem flushed (c : Dev nD) (t : Fin cfg0.N) :
    (dat0 V c).flushed 6 t = ((cfg0.win 6).blk t).view.read (Elt Ideal) (G V c) := by
  obtain ⟨-, -, -, -, -, -, -, -, -, -, -, -, e0, e1⟩ := idx t
  show (cfg0.win 6).cut (grid0.coords t) ((dat0 V c).after 6 t) = _
  rw [after0_6]
  unfold out0_6
  rw [View.canon_unit_zero hz]
  simp only [View.ld_unit_zero (S := S5000x1) hz, View.ld_unit_zero (S := S5000x128) hz, View.ld_unit_zero (S := S128x128) hz,
    View.ld_unit_zero (S := S1x128) hz]
  funext y
  show k0_pay1 (F := Ideal) (iblk0 V c 2 t) (iblk0 V c 1 t) (iblk0 V c 0 t) (iblk0 V c 3 t) (iblk0 V c 4 t) (iblk0 V c 5 t) y
    = G V c (((cfg0.win 6).blk t).view.emb y)
  refine stored V c t y _ ?_ ?_
  · show win0_6.index t (0 : Fin 2) * 5000 + 1 * (y 0).val = 5000 * t.val + (y 0).val; rw [e0]; omega
  · show win0_6.index t (1 : Fin 2) * 128 + 1 * (y 1).val = (y 1).val; rw [e1]; omega

/-- An index of the output array is in point `t`'s block iff each coordinate is in the block's range on its axis. -/
theorem mem_blk (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v21).slice (win0_6.rect t)).set ↔ _
  rw [View.set_slice_whole, Rect.mem_set_unit]
  exact Iff.rfl

/-- THE OUTPUT ARRAY after the launch: the layer of the arrays the launch is entered with (row r is in block r / 5000). -/
theorem final (c : Dev nD) : (dat0 V c).arrAt 6 cfg0.N = G V c :=
  (dat0 V c).arrAt_eq_of_cover 6 (G V c) (fun t _ => flushed V c t) fun i => by
    have hi0 : (i 0).val < 50000 := (i 0).isLt
    have hi1 : (i 1).val < 128 := (i 1).isLt
    have hN : cfg0.N = 10 := N_0
    refine ⟨⟨(i 0).val / 5000, by rw [hN]; omega⟩, flush0_6 _, ?_⟩
    obtain ⟨-, -, -, -, -, -, -, -, -, -, -, -, e0, e1⟩ := idx ⟨(i 0).val / 5000, by rw [hN]; omega⟩
    rw [mem_blk]
    intro a
    match a with
    | ⟨0, _⟩ => show win0_6.index _ (0 : Fin 2) * 5000 ≤ (i 0).val ∧ (i 0).val < win0_6.index _ (0 : Fin 2) * 5000 + 5000; rw [e0]; show (i 0).val / 5000 * 5000 ≤ (i 0).val ∧ (i 0).val < (i 0).val / 5000 * 5000 + 5000; omega
    | ⟨1, _⟩ => show win0_6.index _ (1 : Fin 2) * 128 ≤ (i 1).val ∧ (i 1).val < win0_6.index _ (1 : Fin 2) * 128 + 128; rw [e1]; omega

end Cert.KernelIdeal.Blocks0

end
-- ==== Proof.KernelBlocks1.lean ====
/-
  Launch 1 (a graph layer over all nodes, ten blocks of 5000 rows): what its output array holds after the launch,
  for ANY contents the launch is entered with.

  Block t of the feature array, of the neighbour-sum array and of the degree column is rows 5000·t … 5000·t + 4999;
  the two weight matrices and the bias row are read whole at every point. The body stores the layer's entry for each
  row of its block, and an entry depends only on its own row; so what point t writes back is block t of the layer
  of the whole arrays, and the ten blocks tile the 50000 rows.
-/
import proofs.«141580_j18348100288600_2_alg».proof.Proof.Gen.KernelIdeal.Frame
import proofs.«141580_j18348100288600_2_alg».proof.Proof.KernelPayload
import Idealize.ShloMosaic.Lib.Pipeline.Value

set_option maxRecDepth 16384

noncomputable section

namespace Cert.KernelIdeal.Blocks1

open Cert.KernelIdeal Cert.KernelIdeal.Gen Cert.Sage Idealize.ShloMosaic Idealize.ShloMosaic.ValueIdx Idealize.ShloMosaic.TcCoe
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three per-row windows and the output move one block per point, the
    weights and the bias stay put. -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `r` of the feature block at point `t` is row `5000·t + r` of the feature array. -/
theorem blkX (c : Dev nD) (t : Fin cfg1.N) (x : S5000x128.Idx) (i : S50000x128.Idx)
    (h0 : (i 0).val = 5000 * t.val + (x 0).val) (h1 : (i 1).val = (x 1).val) :
    (iblk1 V c 0 t : Vec Ideal S5000x128 .f32) x = (V c main_v21 : S50000x128.Idx → EReal) i := by
  obtain ⟨e0, e1, -⟩ := idx t
  unfold iblk1
  rw [View.read_apply]
  show V c main_v21 _ = V c main_v21 _
  congr 1
  funext a
  apply Fin.ext
  match a with
  | ⟨0, _⟩ => show win1_0.index t (0 : Fin 2) * 5000 + 1 * (x 0).val = (i 0).val; rw [e0, h0]; omega
  | ⟨1, _⟩ => show win1_0.index t (1 : Fin 2) * 128 + 1 * (x 1).val = (i 1).val; rw [e1, h1]; omega

/-- The same for the neighbour-sum block. -/
theorem blkA (c : Dev nD) (t : Fin cfg1.N) (x : S5000x128.Idx) (i : S50000x128.Idx)
    (h0 : (i 0).val = 5000 * t.val + (x 0).val) (h1 : (i 1).val = (x 1).val) :
    (iblk1 V c 1 t : Vec Ideal S5000x128 .f32) x = (V c main_v34 : S50000x128.Idx → EReal) i := by
  obtain ⟨-, -, e0, e1, -⟩ := idx t
  unfold iblk1
  rw [View.read_apply]
  show V c main_v34 _ = V c main_v34 _
  congr 1
  funext a
  apply Fin.ext
  match a with
  | ⟨0, _⟩ => show win1_1.index t (0 : Fin 2) * 5000 + 1 * (x 0).val = (i 0).val; rw [e0, h0]; omega
  | ⟨1, _⟩ => show win1_1.index t (1 : Fin 2) * 128 + 1 * (x 1).val = (i 1).val; rw [e1, h1]; omega

/-- The same for the degree column's block. -/
theorem blkD (c : Dev nD) (t : Fin cfg1.N) (x : S5000x1.Idx) (i : S50000x1.Idx)
    (h0 : (i 0).val = 5000 * t.val + (x 0).val) (h1 : (i 1).val = (x 1).val) :
    (iblk1 V c 2 t : Vec Ideal S5000x1 .f32) x = (V c main_v7 : S50000x1.Idx → EReal) i := by
  obtain ⟨-, -, -, -, e0, e1, -⟩ := idx t
  unfold iblk1
  rw [View.read_apply]
  show V c main_v7 _ = V c main_v7 _
  congr 1
  funext a
  apply Fin.ext
  match a with
  | ⟨0, _⟩ => show win1_2.index t (0 : Fin 2) * 5000 + 1 * (x 0).val = (i 0).val; rw [e0, h0]; omega
  | ⟨1, _⟩ => show win1_2.index t (1 : Fin 2) * 1 + 1 * (x 1).val = (i 1).val; rw [e1, h1]; omega

/-- The weight matrices and the bias row are read whole at every point. -/
theorem blkWl (c : Dev nD) (t : Fin cfg1.N) :
    (iblk1 V c 3 t : Vec Ideal S128x128 .bf16) = (V c main_v22 : S128x128.Idx → EReal) := by
  obtain ⟨-, -, -, -, -, -, e0, e1, -⟩ := idx t
  funext x
  unfold iblk1
  rw [View.read_apply]
  show V c main_v22 _ = V c main_v22 _
  congr 1
  funext a
  apply Fin.ext
  match a with
  | ⟨0, _⟩ => show win1_3.index t (0 : Fin 2) * 128 + 1 * (x 0).val = (x 0).val; rw [e0]; omega
  | ⟨1, _⟩ => show win1_3.index t (1 : Fin 2) * 128 + 1 * (x 1).val = (x 1).val; rw [e1]; omega

theorem blkWr (c : Dev nD) (t : Fin cfg1.N) :
    (iblk1 V c 4 t : Vec Ideal S128x128 .bf16) = (V c main_v23 : S128x128.Idx → EReal) := by
  obtain ⟨-, -, -, -, -, -, -, -, e0, e1, -⟩ := idx t
  funext x
  unfold iblk1
  rw [View.read_apply]
  show V c main_v23 _ = V c main_v23 _
  congr 1
  funext a
  apply Fin.ext
  match a with
  | ⟨0, _⟩ => show win1_4.index t (0 : Fin 2) * 128 + 1 * (x 0).val = (x 0).val; rw [e0]; omega
  | ⟨1, _⟩ => show win1_4.index t (1 : Fin 2) * 128 + 1 * (x 1).val = (x 1).val; rw [e1]; omega

theorem blkB (c : Dev nD) (t : Fin cfg1.N) :
    (iblk1 V c 5 t : Vec Ideal S1x128 .f32) = (V c main_v24 : S1x128.Idx → EReal) := by
  obtain ⟨-, -, -, -, -, -, -, -, -, -, e0, e1, -⟩ := idx t
  funext x
  unfold iblk1
  rw [View.read_apply]
  show V c main_v24 _ = V c main_v24 _
  congr 1
  funext a
  apply Fin.ext
  match a with
  | ⟨0, _⟩ => show win1_5.index t (0 : Fin 2) * 1 + 1 * (x 0).val = (x 0).val; rw [e0]; omega
  | ⟨1, _⟩ => show win1_5.index t (1 : Fin 2) * 128 + 1 * (x 1).val = (x 1).val; rw [e1]; omega

/-- The layer of the arrays the launch is entered with. -/
def G (c : Dev nD) : S50000x128.Idx → EReal :=
  layer (V c main_v21 : S50000x128.Idx → EReal) (V c main_v34 : S50000x128.Idx → EReal) (V c main_v7 : S50000x1.Idx → EReal)
    (V c main_v22 : S128x128.Idx → EReal) (V c main_v23 : S128x128.Idx → EReal)
    (fun q => (V c main_v24 : S1x128.Idx → EReal) (ix2 (0 : Fin 1) q))

/-- What the body stores at entry `y` of its block at point `t` is the layer's entry at the array index the block's
    rectangle sends `y` to. -/
theorem stored (c : Dev nD) (t : Fin cfg1.N) (y : S5000x128.Idx) (i : S50000x128.Idx)
    (h0 : (i 0).val = 5000 * t.val + (y 0).val) (h1 : (i 1).val = (y 1).val) :
    k1_pay1 (F := Ideal) (iblk1 V c 2 t) (iblk1 V c 1 t) (iblk1 V c 0 t) (iblk1 V c 3 t) (iblk1 V c 4 t) (iblk1 V c 5 t) y
      = G V c i := by
  obtain ⟨p, q, rfl⟩ : ∃ (p : Fin 5000) (q : Fin 128), y = ix2 p q := ⟨y 0, y 1, eq_ix2 y⟩
  obtain ⟨P, Q, rfl⟩ : ∃ (P : Fin 50000) (Q : Fin 128), i = ix2 P Q := ⟨i 0, i 1, eq_ix2 i⟩
  have hP : P.val = 5000 * t.val + p.val := h0
  obtain rfl : Q = q := Fin.ext h1
  refine (Payload.layer_payload1 (iblk1 V c 2 t) (iblk1 V c 1 t) (iblk1 V c 0 t) (iblk1 V c 3 t) (iblk1 V c 4 t)
    (iblk1 V c 5 t) p Q).trans ?_
  unfold G
  rw [layer_apply]
  have eX : (fun j : Fin 128 => (iblk1 V c 0 t : Vec Ideal S5000x128 .f32) (ix2 p j))
      = fun j : Fin 128 => (V c main_v21 : S50000x128.Idx → EReal) (ix2 P j) :=
    funext fun j => blkX V c t (ix2 p j) (ix2 P j) hP rfl
  have eA : (fun j : Fin 128 => (iblk1 V c 1 t : Vec Ideal S5000x128 .f32) (ix2 p j))
      = fun j : Fin 128 => (V c main_v34 : S50000x128.Idx → EReal) (ix2 P j) :=
    funext fun j => blkA V c t (ix2 p j) (ix2 P j) hP rfl
  have eD : (iblk1 V c 2 t : Vec Ideal S5000x1 .f32) (ix2 p (0 : Fin 1)) = (V c main_v7 : S50000x1.Idx → EReal) (ix2 P (0 : Fin 1)) :=
    blkD V c t (ix2 p (0 : Fin 1)) (ix2 P (0 : Fin 1)) hP rfl
  rw [eX, eA, eD, blkWl V c t, blkWr V c t, blkB V c t]

/-- WHAT POINT `t` WRITES BACK is block `t` of the layer of the arrays the launch is entered with. -/
theorem flushed (c : Dev nD) (t : Fin cfg1.N) :
    (dat1 V c).flushed 6 t = ((cfg1.win 6).blk t).view.read (Elt Ideal) (G V c) := by
  obtain ⟨-, -, -, -, -, -, -, -, -, -, -, -, e0, e1⟩ := idx t
  show (cfg1.win 6).cut (grid1.coords t) ((dat1 V c).after 6 t) = _
  rw [after1_6]
  unfold out1_6
  rw [View.canon_unit_zero hz]
  simp only [View.ld_unit_zero (S := S5000x1) hz, View.ld_unit_zero (S := S5000x128) hz, View.ld_unit_zero (S := S128x128) hz,
    View.ld_unit_zero (S := S1x128) hz]
  funext y
  show k1_pay1 (F := Ideal) (iblk1 V c 2 t) (iblk1 V c 1 t) (iblk1 V c 0 t) (iblk1 V c 3 t) (iblk1 V c 4 t) (iblk1 V c 5 t) y
    = G V c (((cfg1.win 6).blk t).view.emb y)
  refine stored V c t y _ ?_ ?_
  · show win1_6.index t (0 : Fin 2) * 5000 + 1 * (y 0).val = 5000 * t.val + (y 0).val; rw [e0]; omega
  · show win1_6.index t (1 : Fin 2) * 128 + 1 * (y 1).val = (y 1).val; rw [e1]; omega

/-- An index of the output array is in point `t`'s block iff each coordinate is in the block's range on its axis. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v35).slice (win1_6.rect t)).set ↔ _
  rw [View.set_slice_whole, Rect.mem_set_unit]
  exact Iff.rfl

/-- THE OUTPUT ARRAY after the launch: the layer of the arrays the launch is entered with (row r is in block r / 5000). -/
theorem final (c : Dev nD) : (dat1 V c).arrAt 6 cfg1.N = G V c :=
  (dat1 V c).arrAt_eq_of_cover 6 (G V c) (fun t _ => flushed V c t) fun i => by
    have hi0 : (i 0).val < 50000 := (i 0).isLt
    have hi1 : (i 1).val < 128 := (i 1).isLt
    have hN : cfg1.N = 10 := N_1
    refine ⟨⟨(i 0).val / 5000, by rw [hN]; omega⟩, flush1_6 _, ?_⟩
    obtain ⟨-, -, -, -, -, -, -, -, -, -, -, -, e0, e1⟩ := idx ⟨(i 0).val / 5000, by rw [hN]; omega⟩
    rw [mem_blk]
    intro a
    match a with
    | ⟨0, _⟩ => show win1_6.index _ (0 : Fin 2) * 5000 ≤ (i 0).val ∧ (i 0).val < win1_6.index _ (0 : Fin 2) * 5000 + 5000; rw [e0]; show (i 0).val / 5000 * 5000 ≤ (i 0).val ∧ (i 0).val < (i 0).val / 5000 * 5000 + 5000; omega
    | ⟨1, _⟩ => show win1_6.index _ (1 : Fin 2) * 128 ≤ (i 1).val ∧ (i 1).val < win1_6.index _ (1 : Fin 2) * 128 + 128; rw [e1]; omega

end Cert.KernelIdeal.Blocks1

end
-- ==== Proof.KernelBlocks2.lean ====
/-
  The last launch (the link head over all pairs, a hundred blocks of 5000 rows): what its output column holds after
  the launch, for ANY contents the launch is entered with.

  Block t of the two endpoint-row arrays and of the attribute array is rows 5000·t … 5000·t + 4999; the three weight
  bands, the bias row, the output weights' row and the output bias are read whole at every point. The body stores the
  score of each row of its block, and a score depends only on its own row; so what point t writes back is block t of
  the head of the whole arrays, and the hundred blocks tile the 500000 rows.
-/
import proofs.«141580_j18348100288600_2_alg».proof.Proof.Gen.KernelIdeal.Frame
import proofs.«141580_j18348100288600_2_alg».proof.Proof.KernelPayload
import Idealize.ShloMosaic.Lib.Pipeline.Value

set_option maxRecDepth 16384

noncomputable section

namespace Cert.KernelIdeal.Blocks2

open Cert.KernelIdeal Cert.KernelIdeal.Gen Cert.Sage Idealize.ShloMosaic Idealize.ShloMosaic.ValueIdx Idealize.ShloMosaic.TcCoe
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three per-row windows and the output move one block per point, the
    rest stay put. -/
theorem idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

/-- Row `r` of the first endpoint block at point `t` is row `5000·t + r` of the first endpoint array. -/
theorem blkU (c : Dev nD) (t : Fin cfg2.N) (x : S5000x128.Idx) (i : S500000x128.Idx)
    (h0 : (i 0).val = 5000 * t.val + (x 0).val) (h1 : (i 1).val = (x 1).val) :
    (iblk2 V c 0 t : Vec Ideal S5000x128 .f32) x = (V c main_v46 : S500000x128.Idx → EReal) i := by
  have e := idx t
  have e0 : win2_0.index t (0 : Fin 2) = t.val := by have := e; tauto
  have e1 : win2_0.index t (1 : Fin 2) = 0 := by have := e; tauto
  unfold iblk2
  rw [View.read_apply]
  show V c main_v46 _ = V c main_v46 _
  congr 1
  funext a
  apply Fin.ext
  match a with
  | ⟨0, _⟩ => show win2_0.index t (0 : Fin 2) * 5000 + 1 * (x 0).val = (i 0).val; rw [e0, h0]; omega
  | ⟨1, _⟩ => show win2_0.index t (1 : Fin 2) * 128 + 1 * (x 1).val = (i 1).val; rw [e1, h1]; omega

/-- The same for the second endpoint block. -/
theorem blkV (c : Dev nD) (t : Fin cfg2.N) (x : S5000x128.Idx) (i : S500000x128.Idx)
    (h0 : (i 0).val = 5000 * t.val + (x 0).val) (h1 : (i 1).val = (x 1).val) :
    (iblk2 V c 1 t : Vec Ideal S5000x128 .f32) x = (V c main_v53 : S500000x128.Idx → EReal) i := by
  have e := idx t
  have e0 : win2_1.index t (0 : Fin 2) = t.val := by have := e; tauto
  have e1 : win2_1.index t (1 : Fin 2) = 0 := by have := e; tauto
  unfold iblk2
  rw [View.read_apply]
  show V c main_v53 _ = V c main_v53 _
  congr 1
  funext a
  apply Fin.ext
  match a with
  | ⟨0, _⟩ => show win2_1.index t (0 : Fin 2) * 5000 + 1 * (x 0).val = (i 0).val; rw [e0, h0]; omega
  | ⟨1, _⟩ => show win2_1.index t (1 : Fin 2) * 128 + 1 * (x 1).val = (i 1).val; rw [e1, h1]; omega

/-- The same for the attribute block. -/
theorem blkE (c : Dev nD) (t : Fin cfg2.N) (x : S5000x128.Idx) (i : S500000x128.Idx)
    (h0 : (i 0).val = 5000 * t.val + (x 0).val) (h1 : (i 1).val = (x 1).val) :
    (iblk2 V c 2 t : Vec Ideal S5000x128 .f32) x = (V c main_arg3 : S500000x128.Idx → EReal) i := by
  have e := idx t
  have e0 : win2_2.index t (0 : Fin 2) = t.val := by have := e; tauto
  have e1 : win2_2.index t (1 : Fin 2) = 0 := by have := e; tauto
  unfold iblk2
  rw [View.read_apply]
  show V c main_arg3 _ = V c main_arg3 _
  congr 1
  funext a
  apply Fin.ext
  match a with
  | ⟨0, _⟩ => show win2_2.index t (0 : Fin 2) * 5000 + 1 * (x 0).val = (i 0).val; rw [e0, h0]; omega
  | ⟨1, _⟩ => show win2_2.index t (1 : Fin 2) * 128 + 1 * (x 1).val = (i 1).val; rw [e1, h1]; omega

/-- The weight bands, the two rows and the output bias are read whole at every point. -/
theorem blkWu (c : Dev nD) (t : Fin cfg2.N) :
    (iblk2 V c 3 t : Vec Ideal S128x128 .bf16) = (V c main_v55 : S128x128.Idx → EReal) := by
  have e := idx t
  have e0 : win2_3.index t (0 : Fin 2) = 0 := by have := e; tauto
  have e1 : win2_3.index t (1 : Fin 2) = 0 := by have := e; tauto
  funext x
  unfold iblk2
  rw [View.read_apply]
  show V c main_v55 _ = V c main_v55 _
  congr 1
  funext a
  apply Fin.ext
  match a with
  | ⟨0, _⟩ => show win2_3.index t (0 : Fin 2) * 128 + 1 * (x 0).val = (x 0).val; rw [e0]; omega
  | ⟨1, _⟩ => show win2_3.index t (1 : Fin 2) * 128 + 1 * (x 1).val = (x 1).val; rw [e1]; omega

theorem blkWv (c : Dev nD) (t : Fin cfg2.N) :
    (iblk2 V c 4 t : Vec Ideal S128x128 .bf16) = (V c main_v57 : S128x128.Idx → EReal) := by
  have e := idx t
  have e0 : win2_4.index t (0 : Fin 2) = 0 := by have := e; tauto
  have e1 : win2_4.index t (1 : Fin 2) = 0 := by have := e; tauto
  funext x
  unfold iblk2
  rw [View.read_apply]
  show V c main_v57 _ = V c main_v57 _
  congr 1
  funext a
  apply Fin.ext
  match a with
  | ⟨0, _⟩ => show win2_4.index t (0 : Fin 2) * 128 + 1 * (x 0).val = (x 0).val; rw [e0]; omega
  | ⟨1, _⟩ => show win2_4.index t (1 : Fin 2) * 128 + 1 * (x 1).val = (x 1).val; rw [e1]; omega

theorem blkWe (c : Dev nD) (t : Fin cfg2.N) :
    (iblk2 V c 5 t : Vec Ideal S128x128 .bf16) = (V c main_v59 : S128x128.Idx → EReal) := by
  have e := idx t
  have e0 : win2_5.index t (0 : Fin 2) = 0 := by have := e; tauto
  have e1 : win2_5.index t (1 : Fin 2) = 0 := by have := e; tauto
  funext x
  unfold iblk2
  rw [View.read_apply]
  show V c main_v59 _ = V c main_v59 _
  congr 1
  funext a
  apply Fin.ext
  match a with
  | ⟨0, _⟩ => show win2_5.index t (0 : Fin 2) * 128 + 1 * (x 0).val = (x 0).val; rw [e0]; omega
  | ⟨1, _⟩ => show win2_5.index t (1 : Fin 2) * 128 + 1 * (x 1).val = (x 1).val; rw [e1]; omega

theorem blkB1 (c : Dev nD) (t : Fin cfg2.N) :
    (iblk2 V c 6 t : Vec Ideal S1x128 .f32) = (V c main_v60 : S1x128.Idx → EReal) := by
  have e := idx t
  have e0 : win2_6.index t (0 : Fin 2) = 0 := by have := e; tauto
  have e1 : win2_6.index t (1 : Fin 2) = 0 := by have := e; tauto
  funext x
  unfold iblk2
  rw [View.read_apply]
  show V c main_v60 _ = V c main_v60 _
  congr 1
  funext a
  apply Fin.ext
  match a with
  | ⟨0, _⟩ => show win2_6.index t (0 : Fin 2) * 1 + 1 * (x 0).val = (x 0).val; rw [e0]; omega
  | ⟨1, _⟩ => show win2_6.index t (1 : Fin 2) * 128 + 1 * (x 1).val = (x 1).val; rw [e1]; omega

theorem blkW2 (c : Dev nD) (t : Fin cfg2.N) :
    (iblk2 V c 7 t : Vec Ideal S1x128 .f32) = (V c main_v61 : S1x128.Idx → EReal) := by
  have e := idx t
  have e0 : win2_7.index t (0 : Fin 2) = 0 := by have := e; tauto
  have e1 : win2_7.index t (1 : Fin 2) = 0 := by have := e; tauto
  funext x
  unfold iblk2
  rw [View.read_apply]
  show V c main_v61 _ = V c main_v61 _
  congr 1
  funext a
  apply Fin.ext
  match a with
  | ⟨0, _⟩ => show win2_7.index t (0 : Fin 2) * 1 + 1 * (x 0).val = (x 0).val; rw [e0]; omega
  | ⟨1, _⟩ => show win2_7.index t (1 : Fin 2) * 128 + 1 * (x 1).val = (x 1).val; rw [e1]; omega

theorem blkB2 (c : Dev nD) (t : Fin cfg2.N) :
    (iblk2 V c 8 t : Vec Ideal S1x1 .f32) = (V c main_v62 : S1x1.Idx → EReal) := by
  have e := idx t
  have e0 : win2_8.index t (0 : Fin 2) = 0 := by have := e; tauto
  have e1 : win2_8.index t (1 : Fin 2) = 0 := by have := e; tauto
  funext x
  unfold iblk2
  rw [View.read_apply]
  show V c main_v62 _ = V c main_v62 _
  congr 1
  funext a
  apply Fin.ext
  match a with
  | ⟨0, _⟩ => show win2_8.index t (0 : Fin 2) * 1 + 1 * (x 0).val = (x 0).val; rw [e0]; omega
  | ⟨1, _⟩ => show win2_8.index t (1 : Fin 2) * 1 + 1 * (x 1).val = (x 1).val; rw [e1]; omega

/-- The head of the arrays the launch is entered with. -/
def G (c : Dev nD) : S500000x1.Idx → EReal :=
  head (V c main_v46 : S500000x128.Idx → EReal) (V c main_v53 : S500000x128.Idx → EReal) (V c main_arg3 : S500000x128.Idx → EReal)
    (fun j k => (V c main_v55 : S128x128.Idx → EReal) (ix2 j k)) (fun j k => (V c main_v57 : S128x128.Idx → EReal) (ix2 j k))
    (fun j k => (V c main_v59 : S128x128.Idx → EReal) (ix2 j k))
    (fun k => (V c main_v60 : S1x128.Idx → EReal) (ix2 (0 : Fin 1) k)) (fun k => (V c main_v61 : S1x128.Idx → EReal) (ix2 (0 : Fin 1) k))
    ((V c main_v62 : S1x1.Idx → EReal) (ix2 (0 : Fin 1) (0 : Fin 1)))

/-- What the body stores at entry `y` of its block at point `t` is the head's entry at the array index the block's
    rectangle sends `y` to. -/
theorem stored (c : Dev nD) (t : Fin cfg2.N) (y : S5000x1.Idx) (i : S500000x1.Idx)
    (h0 : (i 0).val = 5000 * t.val + (y 0).val) :
    k2_pay1 (F := Ideal) (iblk2 V c 0 t) (iblk2 V c 1 t) (iblk2 V c 2 t) (iblk2 V c 3 t) (iblk2 V c 4 t) (iblk2 V c 5 t)
        (iblk2 V c 6 t) (iblk2 V c 7 t) (iblk2 V c 8 t) y
      = G V c i := by
  obtain ⟨p, u, rfl⟩ : ∃ (p : Fin 5000) (u : Fin 1), y = ix2 p u := ⟨y 0, y 1, eq_ix2 y⟩
  obtain ⟨P, U, rfl⟩ : ∃ (P : Fin 500000) (U : Fin 1), i = ix2 P U := ⟨i 0, i 1, eq_ix2 i⟩
  have hP : P.val = 5000 * t.val + p.val := h0
  refine (Payload.head_payload (iblk2 V c 0 t) (iblk2 V c 1 t) (iblk2 V c 2 t) (iblk2 V c 3 t) (iblk2 V c 4 t) (iblk2 V c 5 t)
    (iblk2 V c 6 t) (iblk2 V c 7 t) (iblk2 V c 8 t) p u).trans ?_
  unfold G
  rw [head_apply]
  have eU : (fun j : Fin 128 => (iblk2 V c 0 t : Vec Ideal S5000x128 .f32) (ix2 p j))
      = fun j : Fin 128 => (V c main_v46 : S500000x128.Idx → EReal) (ix2 P j) :=
    funext fun j => blkU V c t (ix2 p j) (ix2 P j) hP rfl
  have eV : (fun j : Fin 128 => (iblk2 V c 1 t : Vec Ideal S5000x128 .f32) (ix2 p j))
      = fun j : Fin 128 => (V c main_v53 : S500000x128.Idx → EReal) (ix2 P j) :=
    funext fun j => blkV V c t (ix2 p j) (ix2 P j) hP rfl
  have eE : (fun j : Fin 128 => (iblk2 V c 2 t : Vec Ideal S5000x128 .f32) (ix2 p j))
      = fun j : Fin 128 => (V c main_arg3 : S500000x128.Idx → EReal) (ix2 P j) :=
    funext fun j => blkE V c t (ix2 p j) (ix2 P j) hP rfl
  rw [eU, eV, eE, blkWu V c t, blkWv V c t, blkWe V c t, blkB1 V c t, blkW2 V c t, blkB2 V c t]

/-- WHAT POINT `t` WRITES BACK is block `t` of the head of the arrays the launch is entered with. -/
theorem flushed (c : Dev nD) (t : Fin cfg2.N) :
    (dat2 V c).flushed 9 t = ((cfg2.win 9).blk t).view.read (Elt Ideal) (G V c) := by
  have e := idx t
  have e0 : win2_9.index t (0 : Fin 2) = t.val := by have := e; tauto
  show (cfg2.win 9).cut (grid2.coords t) ((dat2 V c).after 9 t) = _
  rw [after2_9]
  unfold out2_9
  rw [View.canon_unit_zero hz]
  simp only [View.ld_unit_zero (S := S5000x1) hz, View.ld_unit_zero (S := S5000x128) hz, View.ld_unit_zero (S := S128x128) hz,
    View.ld_unit_zero (S := S1x128) hz, View.ld_unit_zero (S := S1x1) hz]
  funext y
  show k2_pay1 (F := Ideal) (iblk2 V c 0 t) (iblk2 V c 1 t) (iblk2 V c 2 t) (iblk2 V c 3 t) (iblk2 V c 4 t) (iblk2 V c 5 t)
      (iblk2 V c 6 t) (iblk2 V c 7 t) (iblk2 V c 8 t) y
    = G V c (((cfg2.win 9).blk t).view.emb y)
  refine stored V c t y _ ?_
  show win2_9.index t (0 : Fin 2) * 5000 + 1 * (y 0).val = 5000 * t.val + (y 0).val; rw [e0]; omega

/-- An index of the output column is in point `t`'s block iff each coordinate is in the block's range on its axis. -/
theorem mem_blk (t : Fin cfg2.N) (i : S500000x1.Idx) :
    i ∈ ((cfg2.win 9).blk t).view.set ↔ ∀ a : Fin 2, win2_9.index t a * S5000x1.size a ≤ (i a).val ∧ (i a).val < win2_9.index t a * S5000x1.size a + S5000x1.size a := by
  show i ∈ ((View.whole main_v63).slice (win2_9.rect t)).set ↔ _
  rw [View.set_slice_whole, Rect.mem_set_unit]
  exact Iff.rfl

/-- THE OUTPUT COLUMN after the launch: the head of the arrays the launch is entered with (row r is in block r / 5000). -/
theorem final (c : Dev nD) : (dat2 V c).arrAt 9 cfg2.N = G V c :=
  (dat2 V c).arrAt_eq_of_cover 9 (G V c) (fun t _ => flushed V c t) fun i => by
    have hi0 : (i 0).val < 500000 := (i 0).isLt
    have hi1 : (i 1).val < 1 := (i 1).isLt
    have hN : cfg2.N = 100 := N_2
    have hlt : (i 0).val / 5000 < cfg2.N := by rw [hN]; omega
    refine ⟨⟨(i 0).val / 5000, hlt⟩, flush2_9 _, ?_⟩
    have e := idx ⟨(i 0).val / 5000, hlt⟩
    have e0 : win2_9.index ⟨(i 0).val / 5000, hlt⟩ (0 : Fin 2) = (i 0).val / 5000 := by have := e; tauto
    have e1 : win2_9.index ⟨(i 0).val / 5000, hlt⟩ (1 : Fin 2) = 0 := by have := e; tauto
    rw [mem_blk]
    intro a
    match a with
    | ⟨0, _⟩ => show win2_9.index _ (0 : Fin 2) * 5000 ≤ (i 0).val ∧ (i 0).val < win2_9.index _ (0 : Fin 2) * 5000 + 5000; rw [e0]; omega
    | ⟨1, _⟩ => show win2_9.index _ (1 : Fin 2) * 1 ≤ (i 1).val ∧ (i 1).val < win2_9.index _ (1 : Fin 2) * 1 + 1; rw [e1]; omega

end Cert.KernelIdeal.Blocks2

end
-- ==== Proof.LibColumnToRow.lean ====
/-
  A column cast to a row, read at coordinates, for any extent and element type: an [a, 1] array cast to [1, a]
  reads (u, i) at (i, 0) — the two have the same row-major position i. (What a weight column W[:, 0] reshaped to a
  row for a lane-wise product needs.)
-/
import Idealize.ShloMosaic.Lib.ValueIdx
import Idealize.ShloMosaic.Lib.Pipeline.Value

namespace Idealize.ShloMosaic.ValueIdx

variable {α : Type}

/-- An `[a, 1]` array cast to `[1, a]` reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

end Idealize.ShloMosaic.ValueIdx
-- ==== Proof.KernelFold.lean ====
/-
  The contents of the last boundary at the result buffer, read back to the launch memory.

  The generated frame module names the buffer contents at the eight segment boundaries as a fold: a stretch of host
  operations applies its operations, a launch replaces its output array by what its write-backs leave and keeps every
  other buffer. Reading the fold at the buffers that matter gives, boundary by boundary: the neighbour sums and the
  in-degrees of the input features; the first layer's output; the neighbour sums of THAT; the second layer's output;
  its rows at the two endpoints of every pair; the head's output column; and its reshape — the model's term of the
  fourteen arguments. Every buffer is written once, so a value read later is the value written.
-/
import proofs.«141580_j18348100288600_2_alg».proof.Proof.Gen.KernelIdeal.Frame
import proofs.«141580_j18348100288600_2_alg».proof.Proof.Model
import proofs.«141580_j18348100288600_2_alg».proof.Proof.KernelResult
import proofs.«141580_j18348100288600_2_alg».proof.Proof.KernelBlocks0
import proofs.«141580_j18348100288600_2_alg».proof.Proof.KernelBlocks1
import proofs.«141580_j18348100288600_2_alg».proof.Proof.KernelBlocks2
import proofs.«141580_j18348100288600_2_alg».proof.Proof.LibColumns
import proofs.«141580_j18348100288600_2_alg».proof.Proof.LibColumnToRow
import Idealize.ShloMosaic.Lib.ValueLayout
import Idealize.ShloMosaic.Lib.Pipeline.Value
import Idealize.ShloMosaic.Lib.StableHlo.Run

set_option maxRecDepth 16384

noncomputable section

namespace Cert.KernelIdeal.Fold

open Cert.KernelIdeal Cert.KernelIdeal.Gen Cert.Sage Idealize.ShloMosaic Idealize.ShloMosaic.ValueIdx Idealize.ShloMosaic.TcCoe
open Idealize.SL.Sem Idealize.ShloMosaic.StableHlo

/-! ## The four stretches of host operations, from any contents -/

section Stretches

variable (W : Valuation τ sig (Elt Ideal))

set_option maxHeartbeats 4000000 in
/-- The first stretch leaves the neighbour sums of the features, the in-degrees, the two edge rows, the first layer's
    weights in the matrix unit's format and its bias as a row. -/
theorem first_nsum : after hostOps0 W (Proc.devRef .tc main_v20) = neighbourSum (W (Proc.devRef .tc main_arg0)) (W (Proc.devRef .tc main_arg1)) := by
  after_results_simp <;> rfl
theorem first_degree : after hostOps0 W (Proc.devRef .tc main_v7) = degree (W (Proc.devRef .tc main_arg1)) := by
  after_results; rfl
theorem first_src : after hostOps0 W (Proc.devRef .tc main_v1) = edgeRow0 (W (Proc.devRef .tc main_arg1)) := by
  after_results; rfl
theorem first_dst : after hostOps0 W (Proc.devRef .tc main_v3) = edgeRow1 (W (Proc.devRef .tc main_arg1)) := by
  after_results; rfl
theorem first_wl : (after hostOps0 W (Proc.devRef .tc main_v8) : S128x128.Idx → EReal) = (W (Proc.devRef .tc main_arg4) : S128x128.Idx → EReal) := by
  after_results; rfl
theorem first_wr : (after hostOps0 W (Proc.devRef .tc main_v9) : S128x128.Idx → EReal) = (W (Proc.devRef .tc main_arg5) : S128x128.Idx → EReal) := by
  after_results; rfl
theorem first_bias : after hostOps0 W (Proc.devRef .tc main_v10) = shapeCast S1x128 (W (Proc.devRef .tc main_arg6)) Facts₀.shapeCasts_S128_S1x128 := by
  after_results; rfl
theorem first_keeps_arg0 : after hostOps0 W (Proc.devRef .tc main_arg0) = W (Proc.devRef .tc main_arg0) :=
  StableHlo.after_of_forall_not_mem _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem first_keeps_arg2 : after hostOps0 W (Proc.devRef .tc main_arg2) = W (Proc.devRef .tc main_arg2) :=
  StableHlo.after_of_forall_not_mem _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem first_keeps_arg3 : after hostOps0 W (Proc.devRef .tc main_arg3) = W (Proc.devRef .tc main_arg3) :=
  StableHlo.after_of_forall_not_mem _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem first_keeps_arg7 : after hostOps0 W (Proc.devRef .tc main_arg7) = W (Proc.devRef .tc main_arg7) :=
  StableHlo.after_of_forall_not_mem _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem first_keeps_arg8 : after hostOps0 W (Proc.devRef .tc main_arg8) = W (Proc.devRef .tc main_arg8) :=
  StableHlo.after_of_forall_not_mem _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem first_keeps_arg9 : after hostOps0 W (Proc.devRef .tc main_arg9) = W (Proc.devRef .tc main_arg9) :=
  StableHlo.after_of_forall_not_mem _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem first_keeps_arg10 : after hostOps0 W (Proc.devRef .tc main_arg10) = W (Proc.devRef .tc main_arg10) :=
  StableHlo.after_of_forall_not_mem _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem first_keeps_arg11 : after hostOps0 W (Proc.devRef .tc main_arg11) = W (Proc.devRef .tc main_arg11) :=
  StableHlo.after_of_forall_not_mem _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem first_keeps_arg12 : after hostOps0 W (Proc.devRef .tc main_arg12) = W (Proc.devRef .tc main_arg12) :=
  StableHlo.after_of_forall_not_mem _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem first_keeps_arg13 : after hostOps0 W (Proc.devRef .tc main_arg13) = W (Proc.devRef .tc main_arg13) :=
  StableHlo.after_of_forall_not_mem _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

set_option maxHeartbeats 4000000 in
/-- The second stretch leaves the neighbour sums of the first layer's output (the edge rows are the first stretch's),
    and the second layer's weights and bias row; it writes none of the buffers read later. -/
theorem second_nsum : after hostOps1 W (Proc.devRef .tc main_v34) = nsumRows (W (Proc.devRef .tc main_v21)) (W (Proc.devRef .tc main_v1)) (W (Proc.devRef .tc main_v3)) := by
  after_results_simp <;> rfl
theorem second_wl : (after hostOps1 W (Proc.devRef .tc main_v22) : S128x128.Idx → EReal) = (W (Proc.devRef .tc main_arg7) : S128x128.Idx → EReal) := by
  after_results; rfl
theorem second_wr : (after hostOps1 W (Proc.devRef .tc main_v23) : S128x128.Idx → EReal) = (W (Proc.devRef .tc main_arg8) : S128x128.Idx → EReal) := by
  after_results; rfl
theorem second_bias : after hostOps1 W (Proc.devRef .tc main_v24) = shapeCast S1x128 (W (Proc.devRef .tc main_arg9)) Facts₀.shapeCasts_S128_S1x128 := by
  after_results; rfl
theorem second_keeps_v21 : after hostOps1 W (Proc.devRef .tc main_v21) = W (Proc.devRef .tc main_v21) :=
  StableHlo.after_of_forall_not_mem _ _ (List.forall_iff_forall_mem.mp (by
    simp only [hostOps1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem second_keeps_v7 : after hostOps1 W (Proc.devRef .tc main_v7) = W (Proc.devRef .tc main_v7) :=
  StableHlo.after_of_forall_not_mem _ _ (List.forall_iff_forall_mem.mp (by
    simp only [hostOps1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem second_keeps_arg2 : after hostOps1 W (Proc.devRef .tc main_arg2) = W (Proc.devRef .tc main_arg2) :=
  StableHlo.after_of_forall_not_mem _ _ (List.forall_iff_forall_mem.mp (by
    simp only [hostOps1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem second_keeps_arg3 : after hostOps1 W (Proc.devRef .tc main_arg3) = W (Proc.devRef .tc main_arg3) :=
  StableHlo.after_of_forall_not_mem _ _ (List.forall_iff_forall_mem.mp (by
    simp only [hostOps1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem second_keeps_arg10 : after hostOps1 W (Proc.devRef .tc main_arg10) = W (Proc.devRef .tc main_arg10) :=
  StableHlo.after_of_forall_not_mem _ _ (List.forall_iff_forall_mem.mp (by
    simp only [hostOps1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem second_keeps_arg11 : after hostOps1 W (Proc.devRef .tc main_arg11) = W (Proc.devRef .tc main_arg11) :=
  StableHlo.after_of_forall_not_mem _ _ (List.forall_iff_forall_mem.mp (by
    simp only [hostOps1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem second_keeps_arg12 : after hostOps1 W (Proc.devRef .tc main_arg12) = W (Proc.devRef .tc main_arg12) :=
  StableHlo.after_of_forall_not_mem _ _ (List.forall_iff_forall_mem.mp (by
    simp only [hostOps1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))
theorem second_keeps_arg13 : after hostOps1 W (Proc.devRef .tc main_arg13) = W (Proc.devRef .tc main_arg13) :=
  StableHlo.after_of_forall_not_mem _ _ (List.forall_iff_forall_mem.mp (by
    simp only [hostOps1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

set_option maxHeartbeats 4000000 in
/-- The third stretch leaves the rows of the second layer's output at the two endpoint vectors, the three bands of the
    head's weight matrix in the matrix unit's format, and the head's bias, output weights and output bias as rows. -/
theorem third_rowsU : after hostOps2 W (Proc.devRef .tc main_v46) = endRows (W (Proc.devRef .tc main_v35)) (pairRow0 (W (Proc.devRef .tc main_arg2))) := by
  after_results_simp <;> rfl
set_option maxHeartbeats 4000000 in
theorem third_rowsV : after hostOps2 W (Proc.devRef .tc main_v53) = endRows (W (Proc.devRef .tc main_v35)) (pairRow1 (W (Proc.devRef .tc main_arg2))) := by
  after_results_simp <;> rfl
theorem third_wu : (after hostOps2 W (Proc.devRef .tc main_v55) : S128x128.Idx → EReal)
    = extractStridedSlice S128x128 ![0, 0] (W (Proc.devRef .tc main_arg10) : S384x128.Idx → EReal) Facts₀.slices_S384x128_S128x128_0_0 := by
  after_results_simp <;> rfl
theorem third_wv : (after hostOps2 W (Proc.devRef .tc main_v57) : S128x128.Idx → EReal)
    = extractStridedSlice S128x128 ![128, 0] (W (Proc.devRef .tc main_arg10) : S384x128.Idx → EReal) Facts₀.slices_S384x128_S128x128_128_0 := by
  after_results_simp <;> rfl
theorem third_we : (after hostOps2 W (Proc.devRef .tc main_v59) : S128x128.Idx → EReal)
    = extractStridedSlice S128x128 ![256, 0] (W (Proc.devRef .tc main_arg10) : S384x128.Idx → EReal) Facts₀.slices_S384x128_S128x128_256_0 := by
  after_results_simp <;> rfl
theorem third_b1 : after hostOps2 W (Proc.devRef .tc main_v60) = shapeCast S1x128 (W (Proc.devRef .tc main_arg11)) Facts₀.shapeCasts_S128_S1x128 := by
  after_results_simp <;> rfl
theorem third_w2 : after hostOps2 W (Proc.devRef .tc main_v61) = shapeCast S1x128 (W (Proc.devRef .tc main_arg12)) Facts₀.shapeCasts_S128x1_S1x128 := by
  after_results_simp <;> rfl
theorem third_b2 : after hostOps2 W (Proc.devRef .tc main_v62) = shapeCast S1x1 (W (Proc.devRef .tc main_arg13)) Facts₀.shapeCasts_S1_S1x1 := by
  after_results_simp <;> rfl
theorem third_keeps_arg3 : after hostOps2 W (Proc.devRef .tc main_arg3) = W (Proc.devRef .tc main_arg3) :=
  StableHlo.after_of_forall_not_mem _ _ (List.forall_iff_forall_mem.mp (by
    simp only [hostOps2, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

/-- The last stretch reshapes the head's output column into the result vector. -/
theorem last_result : after hostOps3 W (Proc.devRef .tc main_v64) = shapeCast S500000 (W (Proc.devRef .tc main_v63)) Facts₀.shapeCasts_S500000x1_S500000 := by
  after_results; rfl

end Stretches

/-! ## The eight boundaries, read back to the launch memory -/

section Boundaries

variable (m : (ℓ : Loc nD τ sig) → Buf (Elt Ideal) ℓ) (ρ : Dev nD → PrngReg) (c : Dev nD)

/-! ### After the first stretch -/
theorem b1_arg0 : W1 m ρ c (Proc.devRef .tc main_arg0) = (m ((c : Thread nD τ).loc main_arg0)) := first_keeps_arg0 (W0 m ρ c)
theorem b1_arg2 : W1 m ρ c (Proc.devRef .tc main_arg2) = (m ((c : Thread nD τ).loc main_arg2)) := first_keeps_arg2 (W0 m ρ c)
theorem b1_arg3 : W1 m ρ c (Proc.devRef .tc main_arg3) = (m ((c : Thread nD τ).loc main_arg3)) := first_keeps_arg3 (W0 m ρ c)
theorem b1_arg7 : W1 m ρ c (Proc.devRef .tc main_arg7) = (m ((c : Thread nD τ).loc main_arg7)) := first_keeps_arg7 (W0 m ρ c)
theorem b1_arg8 : W1 m ρ c (Proc.devRef .tc main_arg8) = (m ((c : Thread nD τ).loc main_arg8)) := first_keeps_arg8 (W0 m ρ c)
theorem b1_arg9 : W1 m ρ c (Proc.devRef .tc main_arg9) = (m ((c : Thread nD τ).loc main_arg9)) := first_keeps_arg9 (W0 m ρ c)
theorem b1_arg10 : W1 m ρ c (Proc.devRef .tc main_arg10) = (m ((c : Thread nD τ).loc main_arg10)) := first_keeps_arg10 (W0 m ρ c)
theorem b1_arg11 : W1 m ρ c (Proc.devRef .tc main_arg11) = (m ((c : Thread nD τ).loc main_arg11)) := first_keeps_arg11 (W0 m ρ c)
theorem b1_arg12 : W1 m ρ c (Proc.devRef .tc main_arg12) = (m ((c : Thread nD τ).loc main_arg12)) := first_keeps_arg12 (W0 m ρ c)
theorem b1_arg13 : W1 m ρ c (Proc.devRef .tc main_arg13) = (m ((c : Thread nD τ).loc main_arg13)) := first_keeps_arg13 (W0 m ρ c)
theorem b1_nsum : W1 m ρ c (Proc.devRef .tc main_v20) = neighbourSum (m ((c : Thread nD τ).loc main_arg0)) (m ((c : Thread nD τ).loc main_arg1)) := first_nsum (W0 m ρ c)
theorem b1_degree : W1 m ρ c (Proc.devRef .tc main_v7) = degree (m ((c : Thread nD τ).loc main_arg1)) := first_degree (W0 m ρ c)
theorem b1_src : W1 m ρ c (Proc.devRef .tc main_v1) = edgeRow0 (m ((c : Thread nD τ).loc main_arg1)) := first_src (W0 m ρ c)
theorem b1_dst : W1 m ρ c (Proc.devRef .tc main_v3) = edgeRow1 (m ((c : Thread nD τ).loc main_arg1)) := first_dst (W0 m ρ c)
theorem b1_wl : (W1 m ρ c (Proc.devRef .tc main_v8) : S128x128.Idx → EReal) = (m ((c : Thread nD τ).loc main_arg4)) := first_wl (W0 m ρ c)
theorem b1_wr : (W1 m ρ c (Proc.devRef .tc main_v9) : S128x128.Idx → EReal) = (m ((c : Thread nD τ).loc main_arg5)) := first_wr (W0 m ρ c)
theorem b1_bias (q : Fin 128) : (W1 m ρ c (Proc.devRef .tc main_v10) : S1x128.Idx → EReal) (ix2 (0 : Fin 1) q) = ((m ((c : Thread nD τ).loc main_arg6)) : S128.Idx → EReal) (ix1 q) := by
  rw [show W1 m ρ c (Proc.devRef .tc main_v10) = _ from first_bias (W0 m ρ c)]
  exact shapeCast_a_1a_apply _ _ 0 q

/-! ### After the first launch: its output is the first layer; it keeps every other buffer -/

/-- The first layer's output. -/
theorem b2_hidden : W2 m ρ c (Proc.devRef .tc main_v21) = (conv (m ((c : Thread nD τ).loc main_arg0)) (m ((c : Thread nD τ).loc main_arg1)) (m ((c : Thread nD τ).loc main_arg4)) (m ((c : Thread nD τ).loc main_arg5)) (m ((c : Thread nD τ).loc main_arg6))) := by
  refine (W2_arr m ρ c 6).trans ((Blocks0.final (V1 m ρ) c).trans ?_)
  unfold Blocks0.G conv
  have e0 : (V1 m ρ c main_arg0 : S50000x128.Idx → EReal) = (m ((c : Thread nD τ).loc main_arg0)) := b1_arg0 m ρ c
  have e1 : (V1 m ρ c main_v20 : S50000x128.Idx → EReal) = neighbourSum (m ((c : Thread nD τ).loc main_arg0)) (m ((c : Thread nD τ).loc main_arg1)) := b1_nsum m ρ c
  have e2 : (V1 m ρ c main_v7 : S50000x1.Idx → EReal) = degree (m ((c : Thread nD τ).loc main_arg1)) := b1_degree m ρ c
  have e3 : (V1 m ρ c main_v8 : S128x128.Idx → EReal) = (m ((c : Thread nD τ).loc main_arg4)) := b1_wl m ρ c
  have e4 : (V1 m ρ c main_v9 : S128x128.Idx → EReal) = (m ((c : Thread nD τ).loc main_arg5)) := b1_wr m ρ c
  have e5 : (fun q : Fin 128 => (V1 m ρ c main_v10 : S1x128.Idx → EReal) (ix2 (0 : Fin 1) q)) = fun q : Fin 128 => ((m ((c : Thread nD τ).loc main_arg6)) : S128.Idx → EReal) (ix1 q) :=
    funext fun q => b1_bias m ρ c q
  rw [e0, e1, e2, e3, e4, e5]
theorem b2_degree : W2 m ρ c (Proc.devRef .tc main_v7) = degree (m ((c : Thread nD τ).loc main_arg1)) :=
  (W2_arr m ρ c 2).trans ((((dat0 (V1 m ρ) c).arrAt_in 2 rfl _).trans (A_eq0 (V1 m ρ) c 2)).trans (b1_degree m ρ c))
theorem b2_src : W2 m ρ c (Proc.devRef .tc main_v1) = edgeRow0 (m ((c : Thread nD τ).loc main_arg1)) := (W2_of_ne m ρ c main_v1 (by decide)).trans (b1_src m ρ c)
theorem b2_dst : W2 m ρ c (Proc.devRef .tc main_v3) = edgeRow1 (m ((c : Thread nD τ).loc main_arg1)) := (W2_of_ne m ρ c main_v3 (by decide)).trans (b1_dst m ρ c)
theorem b2_arg2 : W2 m ρ c (Proc.devRef .tc main_arg2) = (m ((c : Thread nD τ).loc main_arg2)) := (W2_of_ne m ρ c main_arg2 (by decide)).trans (b1_arg2 m ρ c)
theorem b2_arg3 : W2 m ρ c (Proc.devRef .tc main_arg3) = (m ((c : Thread nD τ).loc main_arg3)) := (W2_of_ne m ρ c main_arg3 (by decide)).trans (b1_arg3 m ρ c)
theorem b2_arg7 : W2 m ρ c (Proc.devRef .tc main_arg7) = (m ((c : Thread nD τ).loc main_arg7)) := (W2_of_ne m ρ c main_arg7 (by decide)).trans (b1_arg7 m ρ c)
theorem b2_arg8 : W2 m ρ c (Proc.devRef .tc main_arg8) = (m ((c : Thread nD τ).loc main_arg8)) := (W2_of_ne m ρ c main_arg8 (by decide)).trans (b1_arg8 m ρ c)
theorem b2_arg9 : W2 m ρ c (Proc.devRef .tc main_arg9) = (m ((c : Thread nD τ).loc main_arg9)) := (W2_of_ne m ρ c main_arg9 (by decide)).trans (b1_arg9 m ρ c)
theorem b2_arg10 : W2 m ρ c (Proc.devRef .tc main_arg10) = (m ((c : Thread nD τ).loc main_arg10)) := (W2_of_ne m ρ c main_arg10 (by decide)).trans (b1_arg10 m ρ c)
theorem b2_arg11 : W2 m ρ c (Proc.devRef .tc main_arg11) = (m ((c : Thread nD τ).loc main_arg11)) := (W2_of_ne m ρ c main_arg11 (by decide)).trans (b1_arg11 m ρ c)
theorem b2_arg12 : W2 m ρ c (Proc.devRef .tc main_arg12) = (m ((c : Thread nD τ).loc main_arg12)) := (W2_of_ne m ρ c main_arg12 (by decide)).trans (b1_arg12 m ρ c)
theorem b2_arg13 : W2 m ρ c (Proc.devRef .tc main_arg13) = (m ((c : Thread nD τ).loc main_arg13)) := (W2_of_ne m ρ c main_arg13 (by decide)).trans (b1_arg13 m ρ c)

/-! ### After the second stretch -/

theorem b3_hidden : W3 m ρ c (Proc.devRef .tc main_v21) = (conv (m ((c : Thread nD τ).loc main_arg0)) (m ((c : Thread nD τ).loc main_arg1)) (m ((c : Thread nD τ).loc main_arg4)) (m ((c : Thread nD τ).loc main_arg5)) (m ((c : Thread nD τ).loc main_arg6))) := (second_keeps_v21 (W2 m ρ c)).trans (b2_hidden m ρ c)
theorem b3_degree : W3 m ρ c (Proc.devRef .tc main_v7) = degree (m ((c : Thread nD τ).loc main_arg1)) := (second_keeps_v7 (W2 m ρ c)).trans (b2_degree m ρ c)
theorem b3_nsum : W3 m ρ c (Proc.devRef .tc main_v34) = neighbourSum (conv (m ((c : Thread nD τ).loc main_arg0)) (m ((c : Thread nD τ).loc main_arg1)) (m ((c : Thread nD τ).loc main_arg4)) (m ((c : Thread nD τ).loc main_arg5)) (m ((c : Thread nD τ).loc main_arg6))) (m ((c : Thread nD τ).loc main_arg1)) := by
  refine (second_nsum (W2 m ρ c)).trans ?_
  rw [b2_hidden m ρ c, b2_src m ρ c, b2_dst m ρ c]
  rfl
theorem b3_wl : (W3 m ρ c (Proc.devRef .tc main_v22) : S128x128.Idx → EReal) = (m ((c : Thread nD τ).loc main_arg7)) := (second_wl (W2 m ρ c)).trans (b2_arg7 m ρ c)
theorem b3_wr : (W3 m ρ c (Proc.devRef .tc main_v23) : S128x128.Idx → EReal) = (m ((c : Thread nD τ).loc main_arg8)) := (second_wr (W2 m ρ c)).trans (b2_arg8 m ρ c)
theorem b3_bias (q : Fin 128) : (W3 m ρ c (Proc.devRef .tc main_v24) : S1x128.Idx → EReal) (ix2 (0 : Fin 1) q) = ((m ((c : Thread nD τ).loc main_arg9)) : S128.Idx → EReal) (ix1 q) := by
  rw [show W3 m ρ c (Proc.devRef .tc main_v24) = _ from second_bias (W2 m ρ c), b2_arg9 m ρ c]
  exact shapeCast_a_1a_apply _ _ 0 q
theorem b3_arg2 : W3 m ρ c (Proc.devRef .tc main_arg2) = (m ((c : Thread nD τ).loc main_arg2)) := (second_keeps_arg2 (W2 m ρ c)).trans (b2_arg2 m ρ c)
theorem b3_arg3 : W3 m ρ c (Proc.devRef .tc main_arg3) = (m ((c : Thread nD τ).loc main_arg3)) := (second_keeps_arg3 (W2 m ρ c)).trans (b2_arg3 m ρ c)
theorem b3_arg10 : W3 m ρ c (Proc.devRef .tc main_arg10) = (m ((c : Thread nD τ).loc main_arg10)) := (second_keeps_arg10 (W2 m ρ c)).trans (b2_arg10 m ρ c)
theorem b3_arg11 : W3 m ρ c (Proc.devRef .tc main_arg11) = (m ((c : Thread nD τ).loc main_arg11)) := (second_keeps_arg11 (W2 m ρ c)).trans (b2_arg11 m ρ c)
theorem b3_arg12 : W3 m ρ c (Proc.devRef .tc main_arg12) = (m ((c : Thread nD τ).loc main_arg12)) := (second_keeps_arg12 (W2 m ρ c)).trans (b2_arg12 m ρ c)
theorem b3_arg13 : W3 m ρ c (Proc.devRef .tc main_arg13) = (m ((c : Thread nD τ).loc main_arg13)) := (second_keeps_arg13 (W2 m ρ c)).trans (b2_arg13 m ρ c)

/-! ### After the second launch: its output is the second layer -/

/-- The second layer's output: the node embeddings. -/
theorem b4_embedding : W4 m ρ c (Proc.devRef .tc main_v35) = (conv (conv (m ((c : Thread nD τ).loc main_arg0)) (m ((c : Thread nD τ).loc main_arg1)) (m ((c : Thread nD τ).loc main_arg4)) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9))) := by
  refine (W4_arr m ρ c 6).trans ((Blocks1.final (V3 m ρ) c).trans ?_)
  unfold Blocks1.G
  have e0 : (V3 m ρ c main_v21 : S50000x128.Idx → EReal) = (conv (m ((c : Thread nD τ).loc main_arg0)) (m ((c : Thread nD τ).loc main_arg1)) (m ((c : Thread nD τ).loc main_arg4)) (m ((c : Thread nD τ).loc main_arg5)) (m ((c : Thread nD τ).loc main_arg6))) := b3_hidden m ρ c
  have e1 : (V3 m ρ c main_v34 : S50000x128.Idx → EReal) = neighbourSum (conv (m ((c : Thread nD τ).loc main_arg0)) (m ((c : Thread nD τ).loc main_arg1)) (m ((c : Thread nD τ).loc main_arg4)) (m ((c : Thread nD τ).loc main_arg5)) (m ((c : Thread nD τ).loc main_arg6))) (m ((c : Thread nD τ).loc main_arg1)) := b3_nsum m ρ c
  have e2 : (V3 m ρ c main_v7 : S50000x1.Idx → EReal) = degree (m ((c : Thread nD τ).loc main_arg1)) := b3_degree m ρ c
  have e3 : (V3 m ρ c main_v22 : S128x128.Idx → EReal) = (m ((c : Thread nD τ).loc main_arg7)) := b3_wl m ρ c
  have e4 : (V3 m ρ c main_v23 : S128x128.Idx → EReal) = (m ((c : Thread nD τ).loc main_arg8)) := b3_wr m ρ c
  have e5 : (fun q : Fin 128 => (V3 m ρ c main_v24 : S1x128.Idx → EReal) (ix2 (0 : Fin 1) q)) = fun q : Fin 128 => ((m ((c : Thread nD τ).loc main_arg9)) : S128.Idx → EReal) (ix1 q) :=
    funext fun q => b3_bias m ρ c q
  rw [e0, e1, e2, e3, e4, e5]
  rfl
theorem b4_arg2 : W4 m ρ c (Proc.devRef .tc main_arg2) = (m ((c : Thread nD τ).loc main_arg2)) := (W4_of_ne m ρ c main_arg2 (by decide)).trans (b3_arg2 m ρ c)
theorem b4_arg3 : W4 m ρ c (Proc.devRef .tc main_arg3) = (m ((c : Thread nD τ).loc main_arg3)) := (W4_of_ne m ρ c main_arg3 (by decide)).trans (b3_arg3 m ρ c)
theorem b4_arg10 : W4 m ρ c (Proc.devRef .tc main_arg10) = (m ((c : Thread nD τ).loc main_arg10)) := (W4_of_ne m ρ c main_arg10 (by decide)).trans (b3_arg10 m ρ c)
theorem b4_arg11 : W4 m ρ c (Proc.devRef .tc main_arg11) = (m ((c : Thread nD τ).loc main_arg11)) := (W4_of_ne m ρ c main_arg11 (by decide)).trans (b3_arg11 m ρ c)
theorem b4_arg12 : W4 m ρ c (Proc.devRef .tc main_arg12) = (m ((c : Thread nD τ).loc main_arg12)) := (W4_of_ne m ρ c main_arg12 (by decide)).trans (b3_arg12 m ρ c)
theorem b4_arg13 : W4 m ρ c (Proc.devRef .tc main_arg13) = (m ((c : Thread nD τ).loc main_arg13)) := (W4_of_ne m ρ c main_arg13 (by decide)).trans (b3_arg13 m ρ c)

/-! ### After the third stretch -/

theorem b5_rowsU : W5 m ρ c (Proc.devRef .tc main_v46) = endRows (conv (conv (m ((c : Thread nD τ).loc main_arg0)) (m ((c : Thread nD τ).loc main_arg1)) (m ((c : Thread nD τ).loc main_arg4)) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9))) (pairRow0 (m ((c : Thread nD τ).loc main_arg2))) := by
  refine (third_rowsU (W4 m ρ c)).trans ?_
  rw [b4_embedding m ρ c, b4_arg2 m ρ c]
theorem b5_rowsV : W5 m ρ c (Proc.devRef .tc main_v53) = endRows (conv (conv (m ((c : Thread nD τ).loc main_arg0)) (m ((c : Thread nD τ).loc main_arg1)) (m ((c : Thread nD τ).loc main_arg4)) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9))) (pairRow1 (m ((c : Thread nD τ).loc main_arg2))) := by
  refine (third_rowsV (W4 m ρ c)).trans ?_
  rw [b4_embedding m ρ c, b4_arg2 m ρ c]
theorem b5_attr : W5 m ρ c (Proc.devRef .tc main_arg3) = (m ((c : Thread nD τ).loc main_arg3)) := (third_keeps_arg3 (W4 m ρ c)).trans (b4_arg3 m ρ c)
/-- The three bands of the head's weight matrix. -/
theorem b5_wu (j k : Fin 128) : (W5 m ρ c (Proc.devRef .tc main_v55) : S128x128.Idx → EReal) (ix2 j k) = ((m ((c : Thread nD τ).loc main_arg10)) : S384x128.Idx → EReal) (ix2 (band0 j) k) := by
  rw [show (W5 m ρ c (Proc.devRef .tc main_v55) : S128x128.Idx → EReal) = _ from third_wu (W4 m ρ c), b4_arg10 m ρ c]
  exact slice2_axis0_apply 0 _ _ j k (band0 j) (by show j.val = 0 + j.val; omega)
theorem b5_wv (j k : Fin 128) : (W5 m ρ c (Proc.devRef .tc main_v57) : S128x128.Idx → EReal) (ix2 j k) = ((m ((c : Thread nD τ).loc main_arg10)) : S384x128.Idx → EReal) (ix2 (band1 j) k) := by
  rw [show (W5 m ρ c (Proc.devRef .tc main_v57) : S128x128.Idx → EReal) = _ from third_wv (W4 m ρ c), b4_arg10 m ρ c]
  exact slice2_axis0_apply 128 _ _ j k (band1 j) rfl
theorem b5_we (j k : Fin 128) : (W5 m ρ c (Proc.devRef .tc main_v59) : S128x128.Idx → EReal) (ix2 j k) = ((m ((c : Thread nD τ).loc main_arg10)) : S384x128.Idx → EReal) (ix2 (band2 j) k) := by
  rw [show (W5 m ρ c (Proc.devRef .tc main_v59) : S128x128.Idx → EReal) = _ from third_we (W4 m ρ c), b4_arg10 m ρ c]
  exact slice2_axis0_apply 256 _ _ j k (band2 j) rfl
theorem b5_b1 (k : Fin 128) : (W5 m ρ c (Proc.devRef .tc main_v60) : S1x128.Idx → EReal) (ix2 (0 : Fin 1) k) = ((m ((c : Thread nD τ).loc main_arg11)) : S128.Idx → EReal) (ix1 k) := by
  rw [show W5 m ρ c (Proc.devRef .tc main_v60) = _ from third_b1 (W4 m ρ c), b4_arg11 m ρ c]
  exact shapeCast_a_1a_apply _ _ 0 k
theorem b5_w2 (k : Fin 128) : (W5 m ρ c (Proc.devRef .tc main_v61) : S1x128.Idx → EReal) (ix2 (0 : Fin 1) k) = ((m ((c : Thread nD τ).loc main_arg12)) : S128x1.Idx → EReal) (ix2 k (0 : Fin 1)) := by
  rw [show W5 m ρ c (Proc.devRef .tc main_v61) = _ from third_w2 (W4 m ρ c), b4_arg12 m ρ c]
  exact shapeCast_a1_1a_apply _ _ 0 k
theorem b5_b2 : (W5 m ρ c (Proc.devRef .tc main_v62) : S1x1.Idx → EReal) (ix2 (0 : Fin 1) (0 : Fin 1)) = ((m ((c : Thread nD τ).loc main_arg13)) : S1.Idx → EReal) (ix1 (0 : Fin 1)) := by
  rw [show W5 m ρ c (Proc.devRef .tc main_v62) = _ from third_b2 (W4 m ρ c), b4_arg13 m ρ c]
  exact shapeCast_a_a1_apply _ _ 0 0

/-! ### After the last launch, and the result -/

set_option maxHeartbeats 4000000 in
/-- The head's output column is the model's. -/
theorem b6_column : W6 m ρ c (Proc.devRef .tc main_v63)
    = scoresCol (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W6_arr m ρ c 9).trans ((Blocks2.final (V5 m ρ) c).trans ?_)
  unfold Blocks2.G scoresCol
  have e0 : (V5 m ρ c main_v46 : S500000x128.Idx → EReal) = endRows (conv (conv (m ((c : Thread nD τ).loc main_arg0)) (m ((c : Thread nD τ).loc main_arg1)) (m ((c : Thread nD τ).loc main_arg4)) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9))) (pairRow0 (m ((c : Thread nD τ).loc main_arg2))) := b5_rowsU m ρ c
  have e1 : (V5 m ρ c main_v53 : S500000x128.Idx → EReal) = endRows (conv (conv (m ((c : Thread nD τ).loc main_arg0)) (m ((c : Thread nD τ).loc main_arg1)) (m ((c : Thread nD τ).loc main_arg4)) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9))) (pairRow1 (m ((c : Thread nD τ).loc main_arg2))) := b5_rowsV m ρ c
  have e2 : (V5 m ρ c main_arg3 : S500000x128.Idx → EReal) = (m ((c : Thread nD τ).loc main_arg3)) := b5_attr m ρ c
  have e3 : (fun j k : Fin 128 => (V5 m ρ c main_v55 : S128x128.Idx → EReal) (ix2 j k)) = fun j k : Fin 128 => ((m ((c : Thread nD τ).loc main_arg10)) : S384x128.Idx → EReal) (ix2 (band0 j) k) :=
    funext fun j => funext fun k => b5_wu m ρ c j k
  have e4 : (fun j k : Fin 128 => (V5 m ρ c main_v57 : S128x128.Idx → EReal) (ix2 j k)) = fun j k : Fin 128 => ((m ((c : Thread nD τ).loc main_arg10)) : S384x128.Idx → EReal) (ix2 (band1 j) k) :=
    funext fun j => funext fun k => b5_wv m ρ c j k
  have e5 : (fun j k : Fin 128 => (V5 m ρ c main_v59 : S128x128.Idx → EReal) (ix2 j k)) = fun j k : Fin 128 => ((m ((c : Thread nD τ).loc main_arg10)) : S384x128.Idx → EReal) (ix2 (band2 j) k) :=
    funext fun j => funext fun k => b5_we m ρ c j k
  have e6 : (fun k : Fin 128 => (V5 m ρ c main_v60 : S1x128.Idx → EReal) (ix2 (0 : Fin 1) k)) = fun k : Fin 128 => ((m ((c : Thread nD τ).loc main_arg11)) : S128.Idx → EReal) (ix1 k) :=
    funext fun k => b5_b1 m ρ c k
  have e7 : (fun k : Fin 128 => (V5 m ρ c main_v61 : S1x128.Idx → EReal) (ix2 (0 : Fin 1) k)) = fun k : Fin 128 => ((m ((c : Thread nD τ).loc main_arg12)) : S128x1.Idx → EReal) (ix2 k (0 : Fin 1)) :=
    funext fun k => b5_w2 m ρ c k
  have e8 : (V5 m ρ c main_v62 : S1x1.Idx → EReal) = shapeCast S1x1 ((m ((c : Thread nD τ).loc main_arg13)) : S1.Idx → EReal) Facts₀.shapeCasts_S1_S1x1 :=
    (third_b2 (W4 m ρ c)).trans (by rw [b4_arg13 m ρ c])
  rw [e0, e1, e2, e3, e4, e5, e6, e7, e8, shapeCast_a_a1_apply]

/-- THE RESULT BUFFER at the last boundary: the model's column, reshaped into a vector. -/
theorem result : W7 m ρ c (Proc.devRef .tc main_v64)
    = shapeCast S500000 (scoresCol (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) Facts₀.shapeCasts_S500000x1_S500000 := by
  refine (last_result (W6 m ρ c)).trans ?_
  rw [b6_column m ρ c]

end Boundaries

/-! ## The run, read -/

/-- Every weakly fair execution of the idealized kernel program terminates with the result buffer at the model's term
    of the launch memory's arguments, and the arguments unchanged. -/
theorem run_model (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v64) = shapeCast S500000 (scoresCol (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) Facts₀.shapeCasts_S500000x1_S500000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run (defs (F := Ideal)) _ _).mono (fun r h c => ⟨(h c).1.trans (result m ρ c), (h c).2⟩) (Result.run_result (F := Ideal) m ρ)

end Cert.KernelIdeal.Fold

end
-- ==== Proof.LibHostColumns.lean ====
/-
  Host forms of a keepdims reduction, read at coordinates. A reduction over the columns of an `[a, b]` array leaves one
  value per row; the index of row `p` with column `k` put back is `(p, k)`. The host lays a per-row value back against
  the rows by two `broadcast_in_dim`s: `[a]` to the column `[a, 1]` (operand axis 0 on result axis 0), then the column
  to `[a, b]` (operand axes on the same result axes, the unit axis repeated). At `(p, c)` the result is the value of
  row `p`.
-/
import Idealize.ShloMosaic.Lib.ValueIdx
import Idealize.ShloMosaic.Lib.Pipeline.Value
import Idealize.ShloMosaic.PureOps.Reduce

namespace Idealize.ShloMosaic.ValueIdx

variable {α : Type}

/-- The reduced index `p` of a reduction over the columns, with column `k` put back, is `(p, k)`. -/
theorem lift_ix1_columns {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- An `[a]` array laid out as the column `[a, 1]` by the host's broadcast reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` laid against `b` columns by the host's broadcast reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value laid out as a column and then against every column reads, at `(p, c)`, the value of row `p`. -/
theorem broadcastInDim_column_apply {a b : ℕ} (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h2 (broadcastInDim ⟨2, ![a, 1]⟩ (![0] : Fin 1 → Fin 2) h1 x) (ix2 p c)
      = x (ix1 p) :=
  (broadcastInDim_a1_ab_apply _ h2 p c).trans (broadcastInDim_a_a1_apply x h1 p 0)

end Idealize.ShloMosaic.ValueIdx
-- ==== Proof.LibHostRows.lean ====
/-
  The host's keepdims broadcasts for a ROW, read at coordinates, for any extents and element type:
  a vector [b] laid out as the row [1, b] (broadcast_in_dim with dims [1]) reads (u, q) at q, and a row [1, b] laid
  against a rows (dims [0, 1]) reads (p, q) at (0, q): what a bias b[None, :] added to every row of a matrix needs.
-/
import Idealize.ShloMosaic.Lib.ValueIdx
import Idealize.ShloMosaic.Lib.Pipeline.Value

namespace Idealize.ShloMosaic.ValueIdx

variable {α : Type}

/-- A `[b]` array laid out as the row `[1, b]` by the host's broadcast reads, at `(u, q)`, the operand at `q`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row `[1, b]` laid against `a` rows by the host's broadcast reads, at `(p, q)`, the row at `(0, q)`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 (0 : Fin 1) q) := by
  refine broadcastInDim_apply _ h v (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

/-- A per-column value laid out as a row and then against every row reads, at `(p, q)`, the value of column `q`. -/
theorem broadcastInDim_row_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h2 (broadcastInDim ⟨2, ![1, b]⟩ (![1] : Fin 1 → Fin 2) h1 x) (ix2 p q)
      = x (ix1 q) :=
  (broadcastInDim_1b_ab_apply _ h2 p q).trans (broadcastInDim_b_1b_apply x h1 0 q)

end Idealize.ShloMosaic.ValueIdx
-- ==== Proof.RefValue.lean ====
/-
  The reference program's result is the model's.

  The reference spells a layer as  max( ((mean · W_l) + b) + (x · W_r), 0 )  with the mean a host division by the
  degree column spread along the row, and the head as the 384-wide product of the concatenated row [z_u | z_v | e]
  with the whole weight matrix. On the extended reals the layer is the specification's by commutativity of + alone
  ((A + b) + C = (A + C) + b), and the head's 384-term sum is the sum of its three 128-term bands. The irregular
  part (index columns, gather, scatter-add) is the model's, operation for operation.
-/
import proofs.«141580_j18348100288600_2_alg».proof.Proof.Gen.ReferenceIdeal.Read
import proofs.«141580_j18348100288600_2_alg».proof.Proof.Model
import proofs.«141580_j18348100288600_2_alg».proof.Proof.LibMatmul
import proofs.«141580_j18348100288600_2_alg».proof.Proof.LibHostColumns
import proofs.«141580_j18348100288600_2_alg».proof.Proof.LibHostRows
import Idealize.ShloMosaic.Lib.Pipeline.Value

set_option maxRecDepth 16384

noncomputable section

open scoped BigOperators

namespace Cert.ReferenceIdeal.RefValue

open Cert.ReferenceIdeal Cert.ReferenceIdeal.Facts₀ Cert.ReferenceIdeal.Read Cert.Sage
open Idealize.ShloMosaic Idealize.ShloMosaic.ValueIdx Idealize.ShloMosaic.TcCoe Idealize.SL.Sem

/-! ## A layer, as the reference's host operations spell it -/

/-- The reference's layer of any features `x`, neighbour sums `agg` and degrees `deg`. -/
def refLayer (x agg : FVec Ideal S50000x128 .f32) (deg : FVec Ideal S50000x1 .f32) (wl wr : FVec Ideal S128x128 .f32)
    (b : FVec Ideal S128 .f32) : FVec Ideal S50000x128 .f32 :=
  maximumf (addf (addf (Host.dotGeneral (F := Ideal) dot_S50000x128_S128x128_S50000x128_1_0_0_1_n_n none
      (Host.divf (F := Ideal) agg (broadcastInDim S50000x128 ![0, 1] bcast_S50000x1_S50000x128_0_1
        (maximumf deg (broadcastInDim S50000x1 ![] bcast_S_S50000x1 (constant (F := Ideal) S_ .f32 0x3F800000#32))))) wl)
      (broadcastInDim S50000x128 ![0, 1] bcast_S1x128_S50000x128_0_1 (broadcastInDim S1x128 ![1] bcast_S128_S1x128_1 b)))
      (Host.dotGeneral (F := Ideal) dot_S50000x128_S128x128_S50000x128_1_0_0_1_n_n none x wr))
    (broadcastInDim S50000x128 ![] bcast_S_S50000x128 (constant (F := Ideal) S_ .f32 0x00000000#32))

/-- It is the specification's layer: the two host products are sums over the 128 lanes, the degree column and the bias
    are spread along the rows, and `(A + b) + C = (A + C) + b`. -/
theorem refLayer_eq (x agg : FVec Ideal S50000x128 .f32) (deg : FVec Ideal S50000x1 .f32) (wl wr : FVec Ideal S128x128 .f32)
    (b : FVec Ideal S128 .f32) :
    refLayer x agg deg wl wr b = layer x agg deg wl wr (fun q => b (ix1 q)) := by
  funext i
  obtain ⟨p, q, rfl⟩ : ∃ (p : Fin 50000) (q : Fin 128), i = ix2 p q := ⟨i 0, i 1, eq_ix2 i⟩
  rw [layer_apply]
  unfold refLayer layerRow
  simp only [maximumf_apply, addf_apply, Host.dotGeneral]
  rw [dotGeneral_ix2 dot_S50000x128_S128x128_S50000x128_1_0_0_1_n_n rfl rfl rfl rfl rfl rfl, dotGeneral_ix2 dot_S50000x128_S128x128_S50000x128_1_0_0_1_n_n rfl rfl rfl rfl rfl rfl, broadcastInDim_row_apply, add_right_comm]
  simp only [Host.divf, Ideal.hostDivf_def, broadcastInDim_a1_ab_apply, maximumf_apply]
  rfl

/-! ## The head, as the reference's host operations spell it -/

/-- Entry (p, k) of three 128-column matrices joined along their columns, k in the first, second, third band. -/
theorem cat_band0 (zu zv ea : FVec Ideal S500000x128 .f32) (p : Fin 500000) (j : Fin 128) :
    concatenate S500000x384 1 [⟨S500000x128, zu⟩, ⟨S500000x128, zv⟩, ⟨S500000x128, ea⟩]
      concatenates_S500000x128_S500000x128_S500000x128_S500000x384_d1 (ix2 p (band0 j)) = zu (ix2 p j) :=
  concatenate_apply_piece (1 : Fin 2) _ _ (ix2 p (band0 j)) 0 (by show (0 : ℕ) < 3; omega) S500000x128 zu rfl rfl 0 rfl (ix2 p j)
    (fun b hb => by match b with | ⟨0, _⟩ => rfl | ⟨1, _⟩ => exact absurd rfl hb) (by show 0 + j.val = j.val; omega)

theorem cat_band1 (zu zv ea : FVec Ideal S500000x128 .f32) (p : Fin 500000) (j : Fin 128) :
    concatenate S500000x384 1 [⟨S500000x128, zu⟩, ⟨S500000x128, zv⟩, ⟨S500000x128, ea⟩]
      concatenates_S500000x128_S500000x128_S500000x128_S500000x384_d1 (ix2 p (band1 j)) = zv (ix2 p j) :=
  concatenate_apply_piece (1 : Fin 2) _ _ (ix2 p (band1 j)) 1 (by show (1 : ℕ) < 3; omega) S500000x128 zv rfl rfl 128 rfl (ix2 p j)
    (fun b hb => by match b with | ⟨0, _⟩ => rfl | ⟨1, _⟩ => exact absurd rfl hb) (by show 128 + j.val = 128 + j.val; rfl)

theorem cat_band2 (zu zv ea : FVec Ideal S500000x128 .f32) (p : Fin 500000) (j : Fin 128) :
    concatenate S500000x384 1 [⟨S500000x128, zu⟩, ⟨S500000x128, zv⟩, ⟨S500000x128, ea⟩]
      concatenates_S500000x128_S500000x128_S500000x128_S500000x384_d1 (ix2 p (band2 j)) = ea (ix2 p j) :=
  concatenate_apply_piece (1 : Fin 2) _ _ (ix2 p (band2 j)) 2 (by show (2 : ℕ) < 3; omega) S500000x128 ea rfl rfl 256 rfl (ix2 p j)
    (fun b hb => by match b with | ⟨0, _⟩ => rfl | ⟨1, _⟩ => exact absurd rfl hb) (by show 256 + j.val = 256 + j.val; rfl)

/-- The reference's head of any endpoint rows and attribute rows, as a column. -/
def refHead (zu zv ea : FVec Ideal S500000x128 .f32) (wm1 : FVec Ideal S384x128 .f32) (bm1 : FVec Ideal S128 .f32)
    (wm2 : FVec Ideal S128x1 .f32) (bm2 : FVec Ideal S1 .f32) : FVec Ideal S500000x1 .f32 :=
  addf (Host.dotGeneral (F := Ideal) dot_S500000x128_S128x1_S500000x1_1_0_0_1_n_n none
      (maximumf (addf (Host.dotGeneral (F := Ideal) dot_S500000x384_S384x128_S500000x128_1_0_0_1_n_n none
          (concatenate S500000x384 1 [⟨S500000x128, zu⟩, ⟨S500000x128, zv⟩, ⟨S500000x128, ea⟩]
            concatenates_S500000x128_S500000x128_S500000x128_S500000x384_d1) wm1)
          (broadcastInDim S500000x128 ![0, 1] bcast_S1x128_S500000x128_0_1 (broadcastInDim S1x128 ![1] bcast_S128_S1x128_1 bm1)))
        (broadcastInDim S500000x128 ![] bcast_S_S500000x128 (constant (F := Ideal) S_ .f32 0x00000000#32))) wm2)
    (broadcastInDim S500000x1 ![0, 1] bcast_S1x1_S500000x1_0_1 (broadcastInDim S1x1 ![1] bcast_S1_S1x1_1 bm2))

/-- It is the specification's head with the three bands of the weight matrix: the 384-term product of the joined row is
    the sum of the three 128-term products. -/
theorem refHead_eq (zu zv ea : FVec Ideal S500000x128 .f32) (wm1 : FVec Ideal S384x128 .f32) (bm1 : FVec Ideal S128 .f32)
    (wm2 : FVec Ideal S128x1 .f32) (bm2 : FVec Ideal S1 .f32) :
    refHead zu zv ea wm1 bm1 wm2 bm2
      = head zu zv ea (fun j c => wm1 (ix2 (band0 j) c)) (fun j c => wm1 (ix2 (band1 j) c)) (fun j c => wm1 (ix2 (band2 j) c))
          (fun c => bm1 (ix1 c)) (fun c => wm2 (ix2 c (0 : Fin 1))) (bm2 (ix1 (0 : Fin 1))) := by
  funext i
  obtain ⟨p, u, rfl⟩ : ∃ (p : Fin 500000) (u : Fin 1), i = ix2 p u := ⟨i 0, i 1, eq_ix2 i⟩
  obtain rfl : u = 0 := Subsingleton.elim _ _
  rw [head_apply]
  unfold refHead headRow
  simp only [addf_apply, Host.dotGeneral]
  rw [dotGeneral_ix2 dot_S500000x128_S128x1_S500000x1_1_0_0_1_n_n rfl rfl rfl rfl rfl rfl, broadcastInDim_row_apply]
  refine congrArg (· + _) (Finset.sum_congr rfl fun c _ => ?_)
  simp only [maximumf_apply, addf_apply]
  rw [dotGeneral_ix2 dot_S500000x384_S384x128_S500000x128_1_0_0_1_n_n rfl rfl rfl rfl rfl rfl, broadcastInDim_row_apply, sum_three_bands]
  simp only [cat_band0, cat_band1, cat_band2]
  rfl

/-! ## The generated stages are these, on the model's irregular pieces -/

variable (x0 : FVec Ideal S50000x128 .f32) (x1 : (⟨S2x1600000, .i32⟩ : BufTy).Contents (Elt Ideal)) (x2 : (⟨S2x500000, .i32⟩ : BufTy).Contents (Elt Ideal)) (x3 : FVec Ideal S500000x128 .f32)
  (x4 x5 : FVec Ideal S128x128 .f32) (x6 : FVec Ideal S128 .f32) (x7 x8 : FVec Ideal S128x128 .f32) (x9 : FVec Ideal S128 .f32)
  (x10 : FVec Ideal S384x128 .f32) (x11 : FVec Ideal S128 .f32) (x12 : FVec Ideal S128x1 .f32) (x13 : FVec Ideal S1 .f32)

theorem nsum1 : val_main_v13 (F := Ideal) x0 x1 = neighbourSum x0 x1 := rfl
theorem deg1 : val_main_v17 (F := Ideal) x1 = degree x1 := rfl
theorem hidden : val_main_v28 (F := Ideal) x0 x1 x4 x5 x6 = conv x0 x1 x4 x5 x6 :=
  (show val_main_v28 (F := Ideal) x0 x1 x4 x5 x6 = refLayer x0 (val_main_v13 (F := Ideal) x0 x1) (val_main_v17 (F := Ideal) x1) x4 x5 x6 from rfl).trans
    ((refLayer_eq _ _ _ _ _ _).trans (by rw [nsum1, deg1]; rfl))

theorem nsum2 : val_main_v38 (F := Ideal) x0 x1 x4 x5 x6 = neighbourSum (val_main_v28 (F := Ideal) x0 x1 x4 x5 x6) x1 := rfl
theorem deg2 : val_main_v42 (F := Ideal) x1 = degree x1 := rfl
theorem embedding : val_main_v53 (F := Ideal) x0 x1 x4 x5 x6 x7 x8 x9 = conv (conv x0 x1 x4 x5 x6) x1 x7 x8 x9 :=
  (show val_main_v53 (F := Ideal) x0 x1 x4 x5 x6 x7 x8 x9
      = refLayer (val_main_v28 (F := Ideal) x0 x1 x4 x5 x6) (val_main_v38 (F := Ideal) x0 x1 x4 x5 x6) (val_main_v42 (F := Ideal) x1) x7 x8 x9 from rfl).trans
    ((refLayer_eq _ _ _ _ _ _).trans (by rw [nsum2, deg2, hidden]; rfl))

theorem rowsU : val_main_v64 (F := Ideal) x0 x1 x2 x4 x5 x6 x7 x8 x9 = endRows (val_main_v53 (F := Ideal) x0 x1 x4 x5 x6 x7 x8 x9) (pairRow0 x2) := rfl
theorem rowsV : val_main_v71 (F := Ideal) x0 x1 x2 x4 x5 x6 x7 x8 x9 = endRows (val_main_v53 (F := Ideal) x0 x1 x4 x5 x6 x7 x8 x9) (pairRow1 x2) := rfl

/-- The reference's result column is the model's. -/
theorem column : val_main_v81 (F := Ideal) x0 x1 x2 x3 x4 x5 x6 x7 x8 x9 x10 x11 x12 x13
    = scoresCol x0 x1 x2 x3 x4 x5 x6 x7 x8 x9 x10 x11 x12 x13 :=
  (show val_main_v81 (F := Ideal) x0 x1 x2 x3 x4 x5 x6 x7 x8 x9 x10 x11 x12 x13
      = refHead (val_main_v64 (F := Ideal) x0 x1 x2 x4 x5 x6 x7 x8 x9) (val_main_v71 (F := Ideal) x0 x1 x2 x4 x5 x6 x7 x8 x9) x3 x10 x11 x12 x13 from rfl).trans
    ((refHead_eq _ _ _ _ _ _ _).trans (by rw [rowsU, rowsV, embedding]; rfl))

/-- The reference's result, as its generated run names it, is the model's term of the launch memory's arguments. -/
theorem result (m : (ℓ : Loc nD τ sig) → Buf (Elt Ideal) ℓ) (c : Dev nD) :
    Cert.ReferenceIdeal.Value.res_main_v82 (F := Ideal) m c = shapeCast S500000 (scoresCol (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) Facts₀.shapeCasts_S500000x1_S500000 := by
  rw [val_main_v82_eq]
  unfold val_main_v82
  rw [column]

end Cert.ReferenceIdeal.RefValue

end
-- ==== Proof.lean ====
/-
  A two-layer mean-aggregation graph network with a link-prediction head, computed by three launches among host
  operations, against its plain array reference: the two idealized programs end with equal results on the extended
  reals.

  Both programs do the irregular part — index columns from the edge and pair lists, gathers, scatter-adds — with the same
  host operations on the same arguments. The kernel program does each layer's dense part, and the head, in a launch
  over row blocks; each launch's output array is the specification's function of the arrays it is entered with
  (an entry depends on one row, so the blocks are restrictions of one whole-array function). Reading the buffer
  contents boundary by boundary gives the kernel program's result as one term of the fourteen arguments; the
  reference's generated run gives its result as another, and the two are the same function:
    · a layer's three summands are added in another order ((A + b) + C against (A + C) + b): commutativity of +;
    · the head's 384-wide product of the joined row is the sum of three 128-wide products: a sum split in bands;
    · the last product (the clamped row against the output weights) is a lane sum of products on both sides.
  No step needs the inputs finite. The ideal pass rewrote nothing, so the kernel's idealization is its own text.
-/
import proofs.«141580_j18348100288600_2_alg».proof.Defs
import proofs.«141580_j18348100288600_2_alg».proof.Proof.Gen.Kernel
import proofs.«141580_j18348100288600_2_alg».proof.Proof.Gen.Kernel.Frame
import proofs.«141580_j18348100288600_2_alg».proof.Proof.Gen.KernelIdeal
import proofs.«141580_j18348100288600_2_alg».proof.Proof.Gen.KernelIdeal.Frame
import proofs.«141580_j18348100288600_2_alg».proof.Proof.Gen.ReferenceIdeal
import proofs.«141580_j18348100288600_2_alg».proof.Proof.Gen.ReferenceIdeal.Run
import proofs.«141580_j18348100288600_2_alg».proof.Proof.Gen.ReferenceIdeal.Read
import proofs.«141580_j18348100288600_2_alg».proof.Proof.Gen.Pre_finite_inputs
import proofs.«141580_j18348100288600_2_alg».proof.Proof.KernelFold
import proofs.«141580_j18348100288600_2_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end at the model's term of the arguments. -/
theorem algebraic : Cert.algebraic_KernelIdeal_ReferenceIdeal := by
  intro m ρ m' ρ' _ hagree
  refine ⟨_, Cert.KernelIdeal.Fold.run_model m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13⟩ := hagree c
  rw [Cert.ReferenceIdeal.RefValue.result m' c, a0, a1, a2, a3, a4, a5, a6, a7, a8, a9, a10, a11, a12, a13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
